-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x512 : Shape := ⟨2, ![4096, 512]⟩
abbrev S4096 : Shape := ⟨1, ![4096]⟩
abbrev S640x512 : Shape := ⟨2, ![640, 512]⟩
abbrev S512 : Shape := ⟨1, ![512]⟩
abbrev S512x512 : Shape := ⟨2, ![512, 512]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S4096 : S_.BroadcastsInDim S4096 (![] : Fin 0 → Fin S4096.rank)
  reducesTo_S4096_S_d0 : S4096.ReducesTo [0] S_
  bcast_S_S640x512 : S_.BroadcastsInDim S640x512 (![] : Fin 0 → Fin S640x512.rank)
  reducesTo_S640x512_S_d0_1 : S640x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part3 {F : FTy → Type} [FloatOps F] (main_arg11 : FVec F S512x512 .f32) (main_arg12 : FVec F S512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x512 .f32 := Host.absf main_arg11
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  main_v63

def fn_part2 {F : FTy → Type} [FloatOps F] (main_arg7 : FVec F S512x512 .f32) (main_arg8 : FVec F S512 .f32) (main_arg9 : FVec F S512x512 .f32) (main_arg10 : FVec F S512 .f32) (main_arg11 : FVec F S512x512 .f32) (main_arg12 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_v48 main_v49 main_v50

def fn_part1 {F : FTy → Type} [FloatOps F] (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x512 .f32) (main_arg12 : FVec F S512 .f32) (main_v13 : IVec S_ 1) (main_v16 : IVec S640x512 1) : IVec S_ 1 :=
  let main_c_5 : IVec S_ 1 := constantI S_ 1 1#1
  let main_v17 : IVec S_ 1 := (fun x v => Host.reduce IntOp.andi x v reducesTo_S640x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S4096x128 .f32) (main_arg1 : FVec F S4096x512 .f32) (main_arg2 : FVec F S4096 .f32) (main_arg3 : FVec F S640x512 .f32) (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x512 .f32) (main_arg12 : FVec F S512 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S640x512 .f32 := Host.absf main_arg3
  let main_cst_4 : FVec F S_ .f32 := constant S_ .f32 0x7F800000#32
  let main_v15 : FVec F S640x512 .f32 := broadcastInDim S640x512 ![] bcast_S_S640x512 main_cst_4
  let main_v16 : IVec S640x512 1 := cmpf .olt main_v14 main_v15
  fn_part1 (F := F) main_arg4 main_arg5 main_arg6 main_arg7 main_arg8 main_arg9 main_arg10 main_arg11 main_arg12 main_v13 main_v16
-- ==== Kernel.lean ====
abbrev S4096x128 : Shape := ⟨2, ![4096, 128]⟩
abbrev S4096x512 : Shape := ⟨2, ![4096, 512]⟩
abbrev S4096 : Shape := ⟨1, ![4096]⟩
abbrev S640x512 : Shape := ⟨2, ![640, 512]⟩
abbrev S512 : Shape := ⟨1, ![512]⟩
abbrev S512x512 : Shape := ⟨2, ![512, 512]⟩
abbrev S4096x1 : Shape := ⟨2, ![4096, 1]⟩
abbrev S1x512 : Shape := ⟨2, ![1, 512]⟩
abbrev S1024x128 : Shape := ⟨2, ![1024, 128]⟩
abbrev S1024x512 : Shape := ⟨2, ![1024, 512]⟩
abbrev S1024x1 : Shape := ⟨2, ![1024, 1]⟩
abbrev S512x128 : Shape := ⟨2, ![512, 128]⟩
abbrev S128x512 : Shape := ⟨2, ![128, 512]⟩
abbrev S512x1 : Shape := ⟨2, ![512, 1]⟩

abbrev nBuf : Space → Nat
  | .hbm => 21
  | .vmem => 20
  | .smem => 0
  | _ => 0

abbrev bufTy : (tb : Table) → Fin (tcTables nBuf tb) → BufTy
  | .hbm, ⟨0, _⟩ => ⟨S4096x128, .f32⟩
  | .hbm, ⟨1, _⟩ => ⟨S4096x512, .f32⟩
  | .hbm, ⟨2, _⟩ => ⟨S4096, .f32⟩
  | .hbm, ⟨3, _⟩ => ⟨S640x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S4096x1, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S4096x512, .f32⟩
  | .hbm, ⟨20, _⟩ => ⟨S4096x512, .f32⟩
  | .local _ .vmem, ⟨0, _⟩ => ⟨S1024x128, .f32⟩
  | .local _ .vmem, ⟨1, _⟩ => ⟨S1024x128, .f32⟩
  | .local _ .vmem, ⟨2, _⟩ => ⟨S1024x512, .f32⟩
  | .local _ .vmem, ⟨3, _⟩ => ⟨S1024x512, .f32⟩
  | .local _ .vmem, ⟨4, _⟩ => ⟨S1024x1, .f32⟩
  | .local _ .vmem, ⟨5, _⟩ => ⟨S1024x1, .f32⟩
  | .local _ .vmem, ⟨6, _⟩ => ⟨S640x512, .f32⟩
  | .local _ .vmem, ⟨7, _⟩ => ⟨S1x512, .f32⟩
  | .local _ .vmem, ⟨8, _⟩ => ⟨S512x512, .f32⟩
  | .local _ .vmem, ⟨9, _⟩ => ⟨S1x512, .f32⟩
  | .local _ .vmem, ⟨10, _⟩ => ⟨S512x512, .f32⟩
  | .local _ .vmem, ⟨11, _⟩ => ⟨S1x512, .f32⟩
  | .local _ .vmem, ⟨12, _⟩ => ⟨S512x512, .f32⟩
  | .local _ .vmem, ⟨13, _⟩ => ⟨S1x512, .f32⟩
  | .local _ .vmem, ⟨14, _⟩ => ⟨S512x512, .f32⟩
  | .local _ .vmem, ⟨15, _⟩ => ⟨S1x512, .f32⟩
  | .local _ .vmem, ⟨16, _⟩ => ⟨S1024x512, .f32⟩
  | .local _ .vmem, ⟨17, _⟩ => ⟨S1024x512, .f32⟩
  | .local _ .vmem, ⟨18, _⟩ => ⟨S1024x512, .f32⟩
  | .local _ .vmem, ⟨19, _⟩ => ⟨S1024x512, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6_0 : Ref sig .tc := ⟨.hbm, 19, rfl⟩
abbrev main_v6_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S640x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  bcast_S4096_S4096x1_0 : S4096.BroadcastsInDim S4096x1 (![0] : Fin 1 → Fin S4096x1.rank)
  bcast_S512_S1x512_1 : S512.BroadcastsInDim S1x512 (![1] : Fin 1 → Fin S1x512.rank)
  inb_S640x512_S640x512_0_0 : ∀ a, (![0, 0] : Fin 2 → Nat) a + S640x512.size a ≤ S640x512.size a
  h_S640x512 : 0 < S640x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1024x128_S512x128_0_0 : ∀ a, (![0, 0] : Fin 2 → Nat) a + S512x128.size a ≤ S1024x128.size a
  h_S512x128 : 0 < S512x128.numel
  slices_S640x512_o0_0_S128x512 : S640x512.Slices ![0, 0] S128x512
  inb_S1024x512_S512x512_0_0 : ∀ a, (![0, 0] : Fin 2 → Nat) a + S512x512.size a ≤ S1024x512.size a
  slices_S640x512_o128_0_S512x512 : S640x512.Slices ![128, 0] S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S1024x1_S512x1_0_0 : ∀ a, (![0, 0] : Fin 2 → Nat) a + S512x1.size a ≤ S1024x1.size a
  h_S512x1 : 0 < S512x1.numel
  shapeCasts_S512x1_S512x1 : S512x1.ShapeCasts S512x1
  broadcasts_S512x1_S512x512 : S512x1.Broadcasts S512x512
  inb_S1024x128_S512x128_512_0 : ∀ a, (![512, 0] : Fin 2 → Nat) a + S512x128.size a ≤ S1024x128.size a
  inb_S1024x512_S512x512_512_0 : ∀ a, (![512, 0] : Fin 2 → Nat) a + S512x512.size a ≤ S1024x512.size a
  inb_S1024x1_S512x1_512_0 : ∀ a, (![512, 0] : Fin 2 → Nat) a + S512x1.size a ≤ S1024x1.size a
  dot_S512x128_S128x512_S512x512_1_0_0_1_n_n_wf : DotDims.WF S512x128 S128x512 S512x512 [1] [0] [0] [1] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S4096x128.size a
  hwx0_0 : ∀ i : grid0.Coords, EltTy.bits .f32 = 32 ∨ (Rect.block (s := S4096x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x512.size a
  hwx0_1 : ∀ i : grid0.Coords, EltTy.bits .f32 = 32 ∨ (Rect.block (s := S4096x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S640x512.size a ≤ S640x512.size a
  hwx0_3 : ∀ i : grid0.Coords, EltTy.bits .f32 = 32 ∨ (Rect.block (s := S640x512) S640x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .f32 = 32 ∨ (Rect.block (s := S512x512) S512x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S512x512.size a
  hwx0_9 : ∀ i : grid0.Coords, EltTy.bits .f32 = 32 ∨ (Rect.block (s := S512x512) S512x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S512x512.size a
  hwx0_11 : ∀ i : grid0.Coords, EltTy.bits .f32 = 32 ∨ (Rect.block (s := S512x512) S512x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x512.size a ≤ S1x512.size a
  hwx0_12 : ∀ i : grid0.Coords, EltTy.bits .f32 = 32 ∨ (Rect.block (s := S1x512) S1x512.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1024x512.size a ≤ S4096x512.size a
  hwx0_13 : ∀ i : grid0.Coords, EltTy.bits .f32 = 32 ∨ (Rect.block (s := S4096x512) S1024x512.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1024x512.size a ≤ S4096x512.size a
  hwx0_14 : ∀ i : grid0.Coords, EltTy.bits .f32 = 32 ∨ (Rect.block (s := S4096x512) S1024x512.size (cc0_transform_14 i) (hinb0_14 i)).WholeWords (EltTy.packing .f32)

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S640x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S512x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S512x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5) S1x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v6_0) S1024x512.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v6_1) S1024x512.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S4096x128 : Shape := ⟨2, ![4096, 128]⟩
abbrev S4096x512 : Shape := ⟨2, ![4096, 512]⟩
abbrev S4096 : Shape := ⟨1, ![4096]⟩
abbrev S640x512 : Shape := ⟨2, ![640, 512]⟩
abbrev S512 : Shape := ⟨1, ![512]⟩
abbrev S512x512 : Shape := ⟨2, ![512, 512]⟩
abbrev S4096x640 : Shape := ⟨2, ![4096, 640]⟩
abbrev S1x512 : Shape := ⟨2, ![1, 512]⟩
abbrev S4096x1 : Shape := ⟨2, ![4096, 1]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x512, .f32⟩
  | .hbm, ⟨2, _⟩ => ⟨S4096, .f32⟩
  | .hbm, ⟨3, _⟩ => ⟨S640x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S4096x640, .f32⟩
  | .hbm, ⟨14, _⟩ => ⟨S4096x512, .f32⟩
  | .hbm, ⟨15, _⟩ => ⟨S1x512, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S1x512, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S1x512, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S1x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S1x512, .f32⟩
  | .hbm, ⟨35, _⟩ => ⟨S4096x512, .f32⟩
  | .hbm, ⟨36, _⟩ => ⟨S4096x512, .f32⟩
  | .hbm, ⟨37, _⟩ => ⟨S4096x1, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S_, .f32⟩
  | .hbm, ⟨44, _⟩ => ⟨S4096x512, .f32⟩
  | .hbm, ⟨45, _⟩ => ⟨S4096x512, .f32⟩
  | .hbm, ⟨46, _⟩ => ⟨S_, .f32⟩
  | .hbm, ⟨47, _⟩ => ⟨S4096x512, .f32⟩
  | .hbm, ⟨48, _⟩ => ⟨S4096x512, .f32⟩
  | .hbm, ⟨49, _⟩ => ⟨S_, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S4096x512, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst : Ref sig .tc := ⟨.hbm, 43, rfl⟩
abbrev main_v30 : Ref sig .tc := ⟨.hbm, 44, rfl⟩
abbrev main_v31 : Ref sig .tc := ⟨.hbm, 45, rfl⟩
abbrev main_cst_0 : Ref sig .tc := ⟨.hbm, 46, rfl⟩
abbrev main_v32 : Ref sig .tc := ⟨.hbm, 47, rfl⟩
abbrev main_v33 : Ref sig .tc := ⟨.hbm, 48, rfl⟩
abbrev main_cst_1 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]

class Facts₀ : Prop where
  concatenates_S4096x128_S4096x512_S4096x640_d1 : Shape.Concatenates [S4096x128, S4096x512] S4096x640 1
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S4096_S4096x1_0 : S4096.BroadcastsInDim S4096x1 (![0] : Fin 1 → Fin S4096x1.rank)
  bcast_S4096x1_S4096x512_0_1 : S4096x1.BroadcastsInDim S4096x512 (![0, 1] : Fin 2 → Fin S4096x512.rank)
  bcast_S_S4096x512 : S_.BroadcastsInDim S4096x512 (![] : Fin 0 → Fin S4096x512.rank)
  dot_S4096x640_S640x512_S4096x512_1_0_0_1_n_n_wf : DotDims.WF S4096x640 S640x512 S4096x512 [1] [0] [0] [1] [] []
  dot_S4096x512_S512x512_S4096x512_1_0_0_1_n_n_wf : DotDims.WF S4096x512 S512x512 S4096x512 [1] [0] [0] [1] [] []

variable [Facts₀]

def dot_S4096x640_S640x512_S4096x512_1_0_0_1_n_n : DotDims S4096x640 S640x512 S4096x512 where
  lhsContracting := [1]
  rhsContracting := [0]
  lhsNonContracting := [0]
  rhsNonContracting := [1]
  lhsBatch := []
  rhsBatch := []
  wf := dot_S4096x640_S640x512_S4096x512_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf

class Facts : Prop extends Facts₀ where

variable [Facts]
-- ==== Proof.Spec.lean ====
/-
  The closed-form cell, one entry at a time.

  For one batch row with input features `a` (128 of them), previous hidden state `h` (512), and elapsed time `τ`,
  the backbone activation is
      x j = tanh ( Σ_{k<128} a k · Wb[k, j]  +  Σ_{k<512} h k · Wb[128 + k, j]  +  bb j ),
  each of the four heads is an affine map of `x`,
      head W b q = Σ_{k<512} x k · W[k, q] + b q,
  and entry `q` of the new hidden state is the interpolation
      ff1 + σ · (ff2 − ff1),   ff1 = tanh (head W1 b1 q),  ff2 = tanh (head W2 b2 q),
      σ = logistic (head Wa ba q · τ + head Wt bt q)
  on the extended reals. `G` is the whole [4096, 512] result as one function of the thirteen argument arrays.

  Two laws join this form to the other spelling of the same cell:
  * the first 128 and the last 512 terms of a sum over 640 indices add up to the whole sum (addition on the extended
    reals is commutative and associative, so no finiteness is needed);
  * `tanh` and `logistic` take every extended real to a REAL number, so for f1, f2, σ real
        f1 · (1 − σ) + σ · f2 = f1 + σ · (f2 − f1)
    is the ring identity of ℝ read in the extended reals.
-/
import Idealize.ShloMosaic.PureOps.Ideal
import Idealize.ShloMosaic.Lib.ValueIdx

noncomputable section

namespace Cert.CfcSpec

open Idealize.ShloMosaic Idealize.ShloMosaic.ValueIdx
open scoped BigOperators

/-- The backbone activation of one row at unit `j`: the concatenated row `[a, h]` against column `j` of `Wb`, the
    sum written as its first 128 terms plus its last 512, then the bias and `tanh`. -/
def backbone (a : Fin 128 → EReal) (h : Fin 512 → EReal) (Wb : (⟨2, ![640, 512]⟩ : Shape).Idx → EReal)
    (bb : Fin 512 → EReal) (j : Fin 512) : EReal :=
  Ideal.tanh ((∑ k : Fin 128, a k * Wb (ix2 (⟨k.val, by omega⟩ : Fin 640) j)
      + ∑ k : Fin 512, h k * Wb (ix2 (⟨128 + k.val, by omega⟩ : Fin 640) j)) + bb j)

/-- One head: an affine map of the backbone activation, read at output unit `q`. -/
def head (x : Fin 512 → EReal) (W : (⟨2, ![512, 512]⟩ : Shape).Idx → EReal) (b : Fin 512 → EReal) (q : Fin 512) : EReal :=
  ∑ k : Fin 512, x k * W (ix2 k q) + b q

/-- Entry `q` of the new hidden state of one row. -/
def cell (a : Fin 128 → EReal) (h : Fin 512 → EReal) (τ : EReal) (Wb : (⟨2, ![640, 512]⟩ : Shape).Idx → EReal)
    (bb : Fin 512 → EReal)
    (W1 : (⟨2, ![512, 512]⟩ : Shape).Idx → EReal) (b1 : Fin 512 → EReal)
    (W2 : (⟨2, ![512, 512]⟩ : Shape).Idx → EReal) (b2 : Fin 512 → EReal)
    (Wa : (⟨2, ![512, 512]⟩ : Shape).Idx → EReal) (ba : Fin 512 → EReal)
    (Wt : (⟨2, ![512, 512]⟩ : Shape).Idx → EReal) (bt : Fin 512 → EReal) (q : Fin 512) : EReal :=
  Ideal.tanh (head (backbone a h Wb bb) W1 b1 q)
    + Ideal.logistic (head (backbone a h Wb bb) Wa ba q * τ + head (backbone a h Wb bb) Wt bt q)
      * (Ideal.tanh (head (backbone a h Wb bb) W2 b2 q) - Ideal.tanh (head (backbone a h Wb bb) W1 b1 q))

/-- The whole result: entry `(p, q)` is the cell of row `p` of the two inputs and of `ts p`, at unit `q`. -/
def G (inp : (⟨2, ![4096, 128]⟩ : Shape).Idx → EReal) (hx : (⟨2, ![4096, 512]⟩ : Shape).Idx → EReal)
    (ts : (⟨1, ![4096]⟩ : Shape).Idx → EReal) (Wb : (⟨2, ![640, 512]⟩ : Shape).Idx → EReal)
    (bb : (⟨1, ![512]⟩ : Shape).Idx → EReal)
    (W1 : (⟨2, ![512, 512]⟩ : Shape).Idx → EReal) (b1 : (⟨1, ![512]⟩ : Shape).Idx → EReal)
    (W2 : (⟨2, ![512, 512]⟩ : Shape).Idx → EReal) (b2 : (⟨1, ![512]⟩ : Shape).Idx → EReal)
    (Wa : (⟨2, ![512, 512]⟩ : Shape).Idx → EReal) (ba : (⟨1, ![512]⟩ : Shape).Idx → EReal)
    (Wt : (⟨2, ![512, 512]⟩ : Shape).Idx → EReal) (bt : (⟨1, ![512]⟩ : Shape).Idx → EReal) :
    (⟨2, ![4096, 512]⟩ : Shape).Idx → EReal :=
  fun i => cell (fun k => inp (ix2 (i 0) k)) (fun k => hx (ix2 (i 0) k)) (ts (ix1 (i 0))) Wb (fun j => bb (ix1 j))
    W1 (fun j => b1 (ix1 j)) W2 (fun j => b2 (ix1 j)) Wa (fun j => ba (ix1 j)) Wt (fun j => bt (ix1 j)) (i 1)

/-! ## The two laws -/

/-- A sum over 640 indices is the sum of its first 128 terms plus the sum of its last 512. -/
theorem sum_640_split (f : Fin 640 → EReal) :
    ∑ k : Fin 640, f k
      = ∑ k : Fin 128, f (⟨k.val, by omega⟩ : Fin 640) + ∑ k : Fin 512, f (⟨128 + k.val, by omega⟩ : Fin 640) := by
  exact Fin.sum_univ_add (a := 128) (b := 512) (f : Fin (128 + 512) → EReal)

/-- `tanh` takes every extended real to a real number. -/
theorem tanh_real (x : EReal) : ∃ r : ℝ, Ideal.tanh x = (r : EReal) := by
  induction x using EReal.rec with
  | bot => exact ⟨-1, by simp⟩
  | coe r => exact ⟨Real.tanh r, rfl⟩
  | top => exact ⟨1, by simp⟩

/-- `logistic` takes every extended real to a real number. -/
theorem logistic_real (x : EReal) : ∃ r : ℝ, Ideal.logistic x = (r : EReal) := by
  induction x using EReal.rec with
  | bot => exact ⟨0, by simp⟩
  | coe r => exact ⟨(1 + Real.exp (-r))⁻¹, Ideal.logistic_coe r⟩
  | top => exact ⟨1, by simp⟩

/-- For real `f1`, `f2`, `σ` the two spellings of the interpolation agree in the extended reals. -/
theorem blend_real (f1 f2 σ : ℝ) :
    (f1 : EReal) * (1 - (σ : EReal)) + (σ : EReal) * (f2 : EReal) = (f1 : EReal) + (σ : EReal) * ((f2 : EReal) - (f1 : EReal)) := by
  rw [← EReal.coe_one, ← EReal.coe_sub, ← EReal.coe_mul, ← EReal.coe_mul, ← EReal.coe_add, ← EReal.coe_sub, ← EReal.coe_mul,
    ← EReal.coe_add]
  congr 1
  ring

/-- The interpolation `ff1 · (1 − σ) + σ · ff2` of two `tanh` values by a `logistic` weight is `ff1 + σ · (ff2 − ff1)`. -/
theorem blend (u v y : EReal) :
    Ideal.tanh u * (1 - Ideal.logistic y) + Ideal.logistic y * Ideal.tanh v
      = Ideal.tanh u + Ideal.logistic y * (Ideal.tanh v - Ideal.tanh u) := by
  obtain ⟨f1, h1⟩ := tanh_real u
  obtain ⟨f2, h2⟩ := tanh_real v
  obtain ⟨σ, h3⟩ := logistic_real y
  rw [h1, h2, h3]
  exact blend_real f1 f2 σ

end Cert.CfcSpec

end
-- ==== Proof.Tile.lean ====
/-
  The kernel body's two stored values, read at an entry.

  The body treats its 1024-row block as two tiles of 512 rows. For each tile it loads the tile's rows of the two
  inputs and of the time column, the whole weight matrices and the bias rows, and stores one [512, 512] value.
  Entry `(r, q)` of that value is the closed-form cell of row `r` of the loaded tiles at unit `q`.
-/
import proofs.«168683_g23931557773776_cont_8to1_961_20_alg».proof.Proof.Gen.KernelIdeal.Skeleton
import proofs.«168683_g23931557773776_cont_8to1_961_20_alg».proof.Proof.Spec
import Idealize.ShloMosaic.Lib.ValueIdx
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx Cert.CfcSpec
open scoped BigOperators

/-! ## A product of two matrices accumulated into zero, read at an entry -/

/-! ### The [512, 512] × [512, 512] product -/

theorem dot512_lhs0 (i : S512x512.Idx) (c : dot_S512x512_S512x512_S512x512_1_0_0_1_n_n.contr.Idx) :
    (dot_S512x512_S512x512_S512x512_1_0_0_1_n_n.lhsIdx i c 0).val = (i 0).val := by
  unfold DotDims.lhsIdx
  rw [dif_neg (show ¬(0 : Fin S512x512.rank) ∈ dot_S512x512_S512x512_S512x512_1_0_0_1_n_n.lhsBatch by decide),
    dif_pos (show (0 : Fin S512x512.rank) ∈ dot_S512x512_S512x512_S512x512_1_0_0_1_n_n.lhsNonContracting by decide)]
  rfl

theorem dot512_lhs1 (i : S512x512.Idx) (c : dot_S512x512_S512x512_S512x512_1_0_0_1_n_n.contr.Idx) :
    (dot_S512x512_S512x512_S512x512_1_0_0_1_n_n.lhsIdx i c 1).val = (c ⟨0, by decide⟩).val :=
  dot_S512x512_S512x512_S512x512_1_0_0_1_n_n.lhsIdx_val_of_single rfl i c

theorem dot512_rhs0 (i : S512x512.Idx) (c : dot_S512x512_S512x512_S512x512_1_0_0_1_n_n.contr.Idx) :
    (dot_S512x512_S512x512_S512x512_1_0_0_1_n_n.rhsIdx i c 0).val = (c ⟨0, by decide⟩).val :=
  dot_S512x512_S512x512_S512x512_1_0_0_1_n_n.rhsIdx_val_of_single rfl i c

theorem dot512_rhs1 (i : S512x512.Idx) (c : dot_S512x512_S512x512_S512x512_1_0_0_1_n_n.contr.Idx) :
    (dot_S512x512_S512x512_S512x512_1_0_0_1_n_n.rhsIdx i c 1).val = (i 1).val := by
  unfold DotDims.rhsIdx
  rw [dif_neg (show ¬(1 : Fin S512x512.rank) ∈ dot_S512x512_S512x512_S512x512_1_0_0_1_n_n.rhsBatch by decide),
    dif_pos (show (1 : Fin S512x512.rank) ∈ dot_S512x512_S512x512_S512x512_1_0_0_1_n_n.rhsNonContracting by decide)]
  rfl

/-- Entry `(r, q)` of the product of a [512, 512] and a [512, 512] matrix accumulated into zero is the sum over the
    512 contracted positions of the products of row `r` of the first with column `q` of the second. -/
theorem dot512_apply {φ₁ φ₂ : FTy} (A : FVec Ideal S512x512 φ₁) (B : FVec Ideal S512x512 φ₂) (r q : Fin 512) :
    matmul (F := Ideal) dot_S512x512_S512x512_S512x512_1_0_0_1_n_n none A B (constant (F := Ideal) S512x512 .f32 0x00000000#32) (ix2 r q)
      = ∑ k : Fin 512, A (ix2 r k) * B (ix2 k q) := by
  simp only [matmul]
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 r q) ((contrEquiv1 dot_S512x512_S512x512_S512x512_1_0_0_1_n_n 512 rfl rfl).symm k) = ix2 r k :=
    funext fun a => Fin.ext (by
      match a with
      | ⟨0, _⟩ => exact dot512_lhs0 _ _
      | ⟨1, _⟩ => exact (dot512_lhs1 _ _).trans hk)
  have er : dot_S512x512_S512x512_S512x512_1_0_0_1_n_n.rhsIdx (ix2 r q) ((contrEquiv1 dot_S512x512_S512x512_S512x512_1_0_0_1_n_n 512 rfl rfl).symm k) = ix2 k q :=
    funext fun a => Fin.ext (by
      match a with
      | ⟨0, _⟩ => exact (dot512_rhs0 _ _).trans hk
      | ⟨1, _⟩ => exact dot512_rhs1 _ _)
  rw [el, er]

/-! ### The [512, 128] × [128, 512] product -/

theorem dot128_lhs0 (i : S512x512.Idx) (c : dot_S512x128_S128x512_S512x512_1_0_0_1_n_n.contr.Idx) :
    (dot_S512x128_S128x512_S512x512_1_0_0_1_n_n.lhsIdx i c 0).val = (i 0).val := by
  unfold DotDims.lhsIdx
  rw [dif_neg (show ¬(0 : Fin S512x128.rank) ∈ dot_S512x128_S128x512_S512x512_1_0_0_1_n_n.lhsBatch by decide),
    dif_pos (show (0 : Fin S512x128.rank) ∈ dot_S512x128_S128x512_S512x512_1_0_0_1_n_n.lhsNonContracting by decide)]
  rfl

theorem dot128_lhs1 (i : S512x512.Idx) (c : dot_S512x128_S128x512_S512x512_1_0_0_1_n_n.contr.Idx) :
    (dot_S512x128_S128x512_S512x512_1_0_0_1_n_n.lhsIdx i c 1).val = (c ⟨0, by decide⟩).val :=
  dot_S512x128_S128x512_S512x512_1_0_0_1_n_n.lhsIdx_val_of_single rfl i c

theorem dot128_rhs0 (i : S512x512.Idx) (c : dot_S512x128_S128x512_S512x512_1_0_0_1_n_n.contr.Idx) :
    (dot_S512x128_S128x512_S512x512_1_0_0_1_n_n.rhsIdx i c 0).val = (c ⟨0, by decide⟩).val :=
  dot_S512x128_S128x512_S512x512_1_0_0_1_n_n.rhsIdx_val_of_single rfl i c

theorem dot128_rhs1 (i : S512x512.Idx) (c : dot_S512x128_S128x512_S512x512_1_0_0_1_n_n.contr.Idx) :
    (dot_S512x128_S128x512_S512x512_1_0_0_1_n_n.rhsIdx i c 1).val = (i 1).val := by
  unfold DotDims.rhsIdx
  rw [dif_neg (show ¬(1 : Fin S128x512.rank) ∈ dot_S512x128_S128x512_S512x512_1_0_0_1_n_n.rhsBatch by decide),
    dif_pos (show (1 : Fin S128x512.rank) ∈ dot_S512x128_S128x512_S512x512_1_0_0_1_n_n.rhsNonContracting by decide)]
  rfl

/-- Entry `(r, q)` of the product of a [512, 128] and a [128, 512] matrix accumulated into zero is the sum over the
    128 contracted positions of the products of row `r` of the first with column `q` of the second. -/
theorem dot128_apply {φ₁ φ₂ : FTy} (A : FVec Ideal S512x128 φ₁) (B : FVec Ideal S128x512 φ₂) (r q : Fin 512) :
    matmul (F := Ideal) dot_S512x128_S128x512_S512x512_1_0_0_1_n_n none A B (constant (F := Ideal) S512x512 .f32 0x00000000#32) (ix2 r q)
      = ∑ k : Fin 128, A (ix2 r k) * B (ix2 k q) := by
  simp only [matmul]
  rw [Ideal.matmul_constant_zero_apply, ← Equiv.sum_comp (contrEquiv1 dot_S512x128_S128x512_S512x512_1_0_0_1_n_n 128 rfl rfl).symm]
  refine Finset.sum_congr rfl fun k _ => ?_
  have hk := contrEquiv1_symm_val dot_S512x128_S128x512_S512x512_1_0_0_1_n_n 128 rfl rfl k
  have el : dot_S512x128_S128x512_S512x512_1_0_0_1_n_n.lhsIdx (ix2 r q) ((contrEquiv1 dot_S512x128_S128x512_S512x512_1_0_0_1_n_n 128 rfl rfl).symm k) = ix2 r k :=
    funext fun a => Fin.ext (by
      match a with
      | ⟨0, _⟩ => exact dot128_lhs0 _ _
      | ⟨1, _⟩ => exact (dot128_lhs1 _ _).trans hk)
  have er : dot_S512x128_S128x512_S512x512_1_0_0_1_n_n.rhsIdx (ix2 r q) ((contrEquiv1 dot_S512x128_S128x512_S512x512_1_0_0_1_n_n 128 rfl rfl).symm k) = ix2 k q :=
    funext fun a => Fin.ext (by
      match a with
      | ⟨0, _⟩ => exact (dot128_rhs0 _ _).trans hk
      | ⟨1, _⟩ => exact dot128_rhs1 _ _)
  rw [el, er]

/-! ## The layout operations, read at an entry -/

/-- A bias row `[1, 512]` repeated over 512 rows reads, at `(r, q)`, the row's entry `q`. -/
theorem bias_row_apply {α : Type} (b : S1x512.Idx → α) (r q : Fin 512) :
    broadcastTo S512x512 (shapeCast S1x512 b shapeCasts_S1x512_S1x512) broadcasts_S1x512_S512x512 (ix2 r q)
      = b (ix2 (0 : Fin 1) q) := by
  rw [shapeCast_self]
  refine broadcastTo_apply b broadcasts_S1x512_S512x512 (ix2 r q) (ix2 (0 : Fin 1) q) fun ax => ?_
  match ax with
  | ⟨0, _⟩ => show 0 = if (1 : Nat) = 1 then 0 else r.val; rw [if_pos rfl]
  | ⟨1, _⟩ => show q.val = if (512 : Nat) = 1 then 0 else q.val; rw [if_neg (by decide)]

/-- A time column `[512, 1]` repeated over 512 columns reads, at `(r, q)`, the column's entry `r`. -/
theorem time_col_apply {α : Type} (t : S512x1.Idx → α) (r q : Fin 512) :
    broadcastTo S512x512 (shapeCast S512x1 t shapeCasts_S512x1_S512x1) broadcasts_S512x1_S512x512 (ix2 r q)
      = t (ix2 r (0 : Fin 1)) := by
  rw [shapeCast_self]
  refine broadcastTo_apply t broadcasts_S512x1_S512x512 (ix2 r q) (ix2 r (0 : Fin 1)) fun ax => ?_
  match ax with
  | ⟨0, _⟩ => show r.val = if (512 : Nat) = 1 then 0 else r.val; rw [if_neg (by decide)]
  | ⟨1, _⟩ => show 0 = if (1 : Nat) = 1 then 0 else q.val; rw [if_pos rfl]

/-- The first 128 rows of a [640, 512] matrix. -/
theorem top_rows_apply {α : Type} (w : S640x512.Idx → α) (k : Fin 128) (j : Fin 512) :
    extractStridedSlice S128x512 ![0, 0] w slices_S640x512_o0_0_S128x512 (ix2 k j)
      = w (ix2 (⟨k.val, by omega⟩ : Fin 640) j) := by
  refine extractStridedSlice_apply _ w _ (ix2 k j) (ix2 (⟨k.val, by omega⟩ : Fin 640) j) fun ax => ?_
  match ax with
  | ⟨0, _⟩ => exact (Nat.zero_add _).symm
  | ⟨1, _⟩ => exact (Nat.zero_add _).symm

/-- The last 512 rows of a [640, 512] matrix. -/
theorem bottom_rows_apply {α : Type} (w : S640x512.Idx → α) (k : Fin 512) (j : Fin 512) :
    extractStridedSlice S512x512 ![128, 0] w slices_S640x512_o128_0_S512x512 (ix2 k j)
      = w (ix2 (⟨128 + k.val, by omega⟩ : Fin 640) j) := by
  refine extractStridedSlice_apply _ w _ (ix2 k j) (ix2 (⟨128 + k.val, by omega⟩ : Fin 640) j) fun ax => ?_
  match ax with
  | ⟨0, _⟩ => rfl
  | ⟨1, _⟩ => exact (Nat.zero_add _).symm

/-! ## The payloads, read at an entry -/

/-- A format change is the identity on extended reals, so the narrowed weights are the weights. -/
theorem pay2_eq (v0 : Vec Ideal S640x512 .f32) : k0_pay2 (F := Ideal) v0 = v0 := rfl
theorem pay3_eq (v : Vec Ideal S512x512 .f32) : k0_pay3 (F := Ideal) v = v := rfl
theorem pay4_eq (v : Vec Ideal S512x512 .f32) : k0_pay4 (F := Ideal) v = v := rfl
theorem pay5_eq (v : Vec Ideal S512x512 .f32) : k0_pay5 (F := Ideal) v = v := rfl
theorem pay6_eq (v : Vec Ideal S512x512 .f32) : k0_pay6 (F := Ideal) v = v := rfl

/-- One head of a tile: the tile's activations `x` times a weight matrix plus a bias row, at `(r, q)`, is the head of
    row `r` of `x` at unit `q`. -/
theorem head_entry (x W : FVec Ideal S512x512 .bf16) (b : Vec Ideal S1x512 .f32) (r q : Fin 512) :
    matmul (F := Ideal) dot_S512x512_S512x512_S512x512_1_0_0_1_n_n none x W (constant (F := Ideal) S512x512 .f32 0x00000000#32) (ix2 r q) + (broadcastTo S512x512 (shapeCast S1x512 b shapeCasts_S1x512_S1x512) broadcasts_S1x512_S512x512) (ix2 r q)
      = head (fun k => x (ix2 r k)) W (fun j => b (ix2 (0 : Fin 1) j)) q := by
  rw [dot512_apply, bias_row_apply]
  rfl

/-- The backbone activation of a tile at `(r, j)`: row `r` of the input tile against the first 128 rows of the
    weights, row `r` of the state tile against the last 512, the bias row, and `tanh`. -/
theorem backbone_entry (w : FVec Ideal S640x512 .bf16) (a : Vec Ideal S512x128 .f32) (h : Vec Ideal S512x512 .f32)
    (b : Vec Ideal S1x512 .f32) (r j : Fin 512) :
    k0_pay12 (F := Ideal) w a h b (ix2 r j)
      = backbone (fun k => a (ix2 r k)) (fun k => h (ix2 r k)) w (fun j => b (ix2 (0 : Fin 1) j)) j := by
  unfold k0_pay12 backbone
  show Ideal.tanh ((matmul (F := Ideal) dot_S512x128_S128x512_S512x512_1_0_0_1_n_n none (truncf .bf16 a bitsLt_bf16_f32)
        (extractStridedSlice S128x512 ![0, 0] w slices_S640x512_o0_0_S128x512) (constant (F := Ideal) S512x512 .f32 0x00000000#32) (ix2 r j)
      + matmul (F := Ideal) dot_S512x512_S512x512_S512x512_1_0_0_1_n_n none (truncf .bf16 h bitsLt_bf16_f32)
        (extractStridedSlice S512x512 ![128, 0] w slices_S640x512_o128_0_S512x512) (constant (F := Ideal) S512x512 .f32 0x00000000#32) (ix2 r j))
      + (broadcastTo S512x512 (shapeCast S1x512 b shapeCasts_S1x512_S1x512) broadcasts_S1x512_S512x512) (ix2 r j)) = _
  rw [dot128_apply, dot512_apply, bias_row_apply]
  simp only [top_rows_apply, bottom_rows_apply]
  rfl

/-- The first tile's backbone payload is the same expression. -/
theorem backbone_entry' (v0 : Vec Ideal S640x512 .f32) (a : Vec Ideal S512x128 .f32) (h : Vec Ideal S512x512 .f32)
    (b : Vec Ideal S1x512 .f32) (r j : Fin 512) :
    k0_pay7 (F := Ideal) v0 a h b (ix2 r j)
      = backbone (fun k => a (ix2 r k)) (fun k => h (ix2 r k)) v0 (fun j => b (ix2 (0 : Fin 1) j)) j :=
  backbone_entry v0 a h b r j

/-- The blended payload of the second tile at `(r, q)`, over any activations `x`, weights and bias rows. -/
theorem pay1_entry (W1 W2 Wa Wt x : FVec Ideal S512x512 .bf16) (b1 b2 ba bt : Vec Ideal S1x512 .f32)
    (t : Vec Ideal S512x1 .f32) (r q : Fin 512) :
    k0_pay1 (F := Ideal) W1 W2 Wa Wt x b1 b2 ba bt t (ix2 r q)
      = Ideal.tanh (head (fun k => x (ix2 r k)) W1 (fun j => b1 (ix2 (0 : Fin 1) j)) q)
        + Ideal.logistic (head (fun k => x (ix2 r k)) Wa (fun j => ba (ix2 (0 : Fin 1) j)) q * t (ix2 r (0 : Fin 1))
            + head (fun k => x (ix2 r k)) Wt (fun j => bt (ix2 (0 : Fin 1) j)) q)
          * (Ideal.tanh (head (fun k => x (ix2 r k)) W2 (fun j => b2 (ix2 (0 : Fin 1) j)) q)
            - Ideal.tanh (head (fun k => x (ix2 r k)) W1 (fun j => b1 (ix2 (0 : Fin 1) j)) q)) := by
  unfold k0_pay1
  show Ideal.tanh (matmul (F := Ideal) dot_S512x512_S512x512_S512x512_1_0_0_1_n_n none x W1 (constant (F := Ideal) S512x512 .f32 0x00000000#32) (ix2 r q) + (broadcastTo S512x512 (shapeCast S1x512 b1 shapeCasts_S1x512_S1x512) broadcasts_S1x512_S512x512) (ix2 r q))
      + Ideal.logistic ((matmul (F := Ideal) dot_S512x512_S512x512_S512x512_1_0_0_1_n_n none x Wa (constant (F := Ideal) S512x512 .f32 0x00000000#32) (ix2 r q) + (broadcastTo S512x512 (shapeCast S1x512 ba shapeCasts_S1x512_S1x512) broadcasts_S1x512_S512x512) (ix2 r q)) * (broadcastTo S512x512 (shapeCast S512x1 t shapeCasts_S512x1_S512x1) broadcasts_S512x1_S512x512) (ix2 r q)
          + (matmul (F := Ideal) dot_S512x512_S512x512_S512x512_1_0_0_1_n_n none x Wt (constant (F := Ideal) S512x512 .f32 0x00000000#32) (ix2 r q) + (broadcastTo S512x512 (shapeCast S1x512 bt shapeCasts_S1x512_S1x512) broadcasts_S1x512_S512x512) (ix2 r q)))
        * (Ideal.tanh (matmul (F := Ideal) dot_S512x512_S512x512_S512x512_1_0_0_1_n_n none x W2 (constant (F := Ideal) S512x512 .f32 0x00000000#32) (ix2 r q) + (broadcastTo S512x512 (shapeCast S1x512 b2 shapeCasts_S1x512_S1x512) broadcasts_S1x512_S512x512) (ix2 r q))
          - Ideal.tanh (matmul (F := Ideal) dot_S512x512_S512x512_S512x512_1_0_0_1_n_n none x W1 (constant (F := Ideal) S512x512 .f32 0x00000000#32) (ix2 r q) + (broadcastTo S512x512 (shapeCast S1x512 b1 shapeCasts_S1x512_S1x512) broadcasts_S1x512_S512x512) (ix2 r q))) = _
  rw [head_entry, head_entry, head_entry, head_entry, time_col_apply]

/-- The blended payload of the first tile at `(r, q)`: its first `tanh` value `f1`, the second head's product `m2` and
    its repeated bias `B2` arrive already computed. -/
theorem pay11_entry (Wa Wt x : FVec Ideal S512x512 .bf16) (f1 m2 B2 : FVec Ideal S512x512 .f32)
    (ba bt : Vec Ideal S1x512 .f32) (t : Vec Ideal S512x1 .f32) (r q : Fin 512) :
    k0_pay11 (F := Ideal) Wa Wt x f1 m2 B2 ba bt t (ix2 r q)
      = f1 (ix2 r q)
        + Ideal.logistic (head (fun k => x (ix2 r k)) Wa (fun j => ba (ix2 (0 : Fin 1) j)) q * t (ix2 r (0 : Fin 1))
            + head (fun k => x (ix2 r k)) Wt (fun j => bt (ix2 (0 : Fin 1) j)) q)
          * (Ideal.tanh (m2 (ix2 r q) + B2 (ix2 r q)) - f1 (ix2 r q)) := by
  unfold k0_pay11
  show f1 (ix2 r q)
      + Ideal.logistic ((matmul (F := Ideal) dot_S512x512_S512x512_S512x512_1_0_0_1_n_n none x Wa (constant (F := Ideal) S512x512 .f32 0x00000000#32) (ix2 r q) + (broadcastTo S512x512 (shapeCast S1x512 ba shapeCasts_S1x512_S1x512) broadcasts_S1x512_S512x512) (ix2 r q)) * (broadcastTo S512x512 (shapeCast S512x1 t shapeCasts_S512x1_S512x1) broadcasts_S512x1_S512x512) (ix2 r q)
          + (matmul (F := Ideal) dot_S512x512_S512x512_S512x512_1_0_0_1_n_n none x Wt (constant (F := Ideal) S512x512 .f32 0x00000000#32) (ix2 r q) + (broadcastTo S512x512 (shapeCast S1x512 bt shapeCasts_S1x512_S1x512) broadcasts_S1x512_S512x512) (ix2 r q)))
        * (Ideal.tanh (m2 (ix2 r q) + B2 (ix2 r q)) - f1 (ix2 r q)) = _
  rw [head_entry, head_entry, time_col_apply]

/-- The first tile's first `tanh` value at `(r, q)`. -/
theorem pay8_entry (v0 : Vec Ideal S640x512 .f32) (v2 : Vec Ideal S512x512 .f32) (v10 : Vec Ideal S512x128 .f32)
    (v14 : Vec Ideal S512x512 .f32) (v19 v26 : Vec Ideal S1x512 .f32) (r q : Fin 512) :
    k0_pay8 (F := Ideal) v0 v2 v10 v14 v19 v26 (ix2 r q)
      = Ideal.tanh (head (fun k => k0_pay7 (F := Ideal) v0 v10 v14 v19 (ix2 r k)) v2 (fun j => v26 (ix2 (0 : Fin 1) j)) q) := by
  unfold k0_pay8
  show Ideal.tanh (matmul (F := Ideal) dot_S512x512_S512x512_S512x512_1_0_0_1_n_n none (k0_pay7 (F := Ideal) v0 v10 v14 v19) (k0_pay3 (F := Ideal) v2) (constant (F := Ideal) S512x512 .f32 0x00000000#32) (ix2 r q) + (broadcastTo S512x512 (shapeCast S1x512 v26 shapeCasts_S1x512_S1x512) broadcasts_S1x512_S512x512) (ix2 r q)) = _
  rw [head_entry, pay3_eq]

/-- The first tile's second head at `(r, q)`: its product plus its repeated bias. -/
theorem pay9_10_entry (v0 : Vec Ideal S640x512 .f32) (v4 : Vec Ideal S512x512 .f32) (v10 : Vec Ideal S512x128 .f32)
    (v14 : Vec Ideal S512x512 .f32) (v19 v32 : Vec Ideal S1x512 .f32) (r q : Fin 512) :
    k0_pay9 (F := Ideal) v0 v4 v10 v14 v19 (ix2 r q) + k0_pay10 (F := Ideal) v32 (ix2 r q)
      = head (fun k => k0_pay7 (F := Ideal) v0 v10 v14 v19 (ix2 r k)) v4 (fun j => v32 (ix2 (0 : Fin 1) j)) q := by
  unfold k0_pay9 k0_pay10
  show matmul (F := Ideal) dot_S512x512_S512x512_S512x512_1_0_0_1_n_n none (k0_pay7 (F := Ideal) v0 v10 v14 v19) (k0_pay4 (F := Ideal) v4) (constant (F := Ideal) S512x512 .f32 0x00000000#32) (ix2 r q) + (broadcastTo S512x512 (shapeCast S1x512 v32 shapeCasts_S1x512_S1x512) broadcasts_S1x512_S512x512) (ix2 r q) = _
  rw [head_entry, pay4_eq]

/-- The value stored for the block's first tile, at entry `(r, q)`. -/
theorem first_tile (v0 : Vec Ideal S640x512 .f32) (v2 v4 v6 v8 : Vec Ideal S512x512 .f32)
    (v10 : Vec Ideal S512x128 .f32) (v14 : Vec Ideal S512x512 .f32) (v19 v26 v32 v38 v43 : Vec Ideal S1x512 .f32)
    (v47 : Vec Ideal S512x1 .f32) (r q : Fin 512) :
    k0_pay11 (F := Ideal) (k0_pay5 v6) (k0_pay6 v8) (k0_pay7 v0 v10 v14 v19) (k0_pay8 v0 v2 v10 v14 v19 v26)
        (k0_pay9 v0 v4 v10 v14 v19) (k0_pay10 v32) v38 v43 v47 (ix2 r q)
      = cell (fun k => v10 (ix2 r k)) (fun k => v14 (ix2 r k)) (v47 (ix2 r (0 : Fin 1))) v0
          (fun j => v19 (ix2 (0 : Fin 1) j)) v2 (fun j => v26 (ix2 (0 : Fin 1) j)) v4 (fun j => v32 (ix2 (0 : Fin 1) j))
          v6 (fun j => v38 (ix2 (0 : Fin 1) j)) v8 (fun j => v43 (ix2 (0 : Fin 1) j)) q := by
  have hx : (fun k => k0_pay7 (F := Ideal) v0 v10 v14 v19 (ix2 r k))
      = backbone (fun k => v10 (ix2 r k)) (fun k => v14 (ix2 r k)) v0 (fun j => v19 (ix2 (0 : Fin 1) j)) :=
    funext fun k => backbone_entry' v0 v10 v14 v19 r k
  rw [pay11_entry, pay8_entry, pay9_10_entry, pay5_eq, pay6_eq, hx]
  rfl

/-- The value stored for the block's second tile, at entry `(r, q)`. -/
theorem second_tile (v0 : Vec Ideal S640x512 .f32) (v2 v4 v6 v8 : Vec Ideal S512x512 .f32)
    (v58 : Vec Ideal S512x128 .f32) (v62 : Vec Ideal S512x512 .f32) (v67 v74 v80 v86 v91 : Vec Ideal S1x512 .f32)
    (v95 : Vec Ideal S512x1 .f32) (r q : Fin 512) :
    k0_pay1 (F := Ideal) (k0_pay3 v2) (k0_pay4 v4) (k0_pay5 v6) (k0_pay6 v8) (k0_pay12 (k0_pay2 v0) v58 v62 v67)
        v74 v80 v86 v91 v95 (ix2 r q)
      = cell (fun k => v58 (ix2 r k)) (fun k => v62 (ix2 r k)) (v95 (ix2 r (0 : Fin 1))) v0
          (fun j => v67 (ix2 (0 : Fin 1) j)) v2 (fun j => v74 (ix2 (0 : Fin 1) j)) v4 (fun j => v80 (ix2 (0 : Fin 1) j))
          v6 (fun j => v86 (ix2 (0 : Fin 1) j)) v8 (fun j => v91 (ix2 (0 : Fin 1) j)) q := by
  have hx : (fun k => k0_pay12 (F := Ideal) (k0_pay2 v0) v58 v62 v67 (ix2 r k))
      = backbone (fun k => v58 (ix2 r k)) (fun k => v62 (ix2 r k)) v0 (fun j => v67 (ix2 (0 : Fin 1) j)) :=
    funext fun k => backbone_entry (k0_pay2 v0) v58 v62 v67 r k
  rw [pay1_entry, pay3_eq, pay4_eq, pay5_eq, pay6_eq, hx]
  rfl

end Cert.KernelIdeal.Tile

end
-- ==== Proof.HostRows.lean ====
/-
  What the region finds in the windows the host made before it.

  Before the region the host turns the vector `ts` into a [4096, 1] column and each bias vector into a [1, 512] row.
  Entry `(p, 0)` of the column is `ts p`; entry `(0, j)` of a row is the bias at `j`.
-/
import proofs.«168683_g23931557773776_cont_8to1_961_20_alg».proof.Proof.Gen.KernelIdeal.Frame
import Idealize.ShloMosaic.Lib.ValueIdx
import Idealize.ShloMosaic.Lib.Pipeline.Value
import Idealize.ShloMosaic.Lib.StableHlo.Run

noncomputable section

namespace Cert.KernelIdeal.HostRows

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The time column the region finds is the host's broadcast of `ts`. -/
theorem V_v0 (c : Dev nD) : (V m c main_v0 : S4096x1.Idx → EReal)
    = broadcastInDim S4096x1 ![0] bcast_S4096_S4096x1_0 (m ((c : Thread nD τ).loc main_arg2)) := by
  dsimp only [Gen.V, Gen.hostOps0]; after_results

/-- Entry `(p, 0)` of the time column is `ts p`. -/
theorem V_v0_apply (c : Dev nD) (p : Fin 4096) :
    (V m c main_v0 : S4096x1.Idx → EReal) (ix2 p (0 : Fin 1)) = m ((c : Thread nD τ).loc main_arg2) (ix1 p) := by
  rw [V_v0]
  exact broadcastInDim_apply _ _ _ _ _ (fun a => by match a with | ⟨0, _⟩ => rfl)

/-- Bias row 1 the region finds is the host's broadcast of its vector. -/
theorem V_v1 (c : Dev nD) : (V m c main_v1 : S1x512.Idx → EReal)
    = broadcastInDim S1x512 ![1] bcast_S512_S1x512_1 (m ((c : Thread nD τ).loc main_arg4)) := by
  dsimp only [Gen.V, Gen.hostOps0]; after_results

/-- Entry `(0, j)` of bias row 1 is the bias at `j`. -/
theorem V_v1_apply (c : Dev nD) (j : Fin 512) :
    (V m c main_v1 : S1x512.Idx → EReal) (ix2 (0 : Fin 1) j) = m ((c : Thread nD τ).loc main_arg4) (ix1 j) := by
  rw [V_v1]
  exact broadcastInDim_apply _ _ _ _ _ (fun a => by match a with | ⟨0, _⟩ => rfl)

/-- Bias row 2 the region finds is the host's broadcast of its vector. -/
theorem V_v2 (c : Dev nD) : (V m c main_v2 : S1x512.Idx → EReal)
    = broadcastInDim S1x512 ![1] bcast_S512_S1x512_1 (m ((c : Thread nD τ).loc main_arg6)) := by
  dsimp only [Gen.V, Gen.hostOps0]; after_results

/-- Entry `(0, j)` of bias row 2 is the bias at `j`. -/
theorem V_v2_apply (c : Dev nD) (j : Fin 512) :
    (V m c main_v2 : S1x512.Idx → EReal) (ix2 (0 : Fin 1) j) = m ((c : Thread nD τ).loc main_arg6) (ix1 j) := by
  rw [V_v2]
  exact broadcastInDim_apply _ _ _ _ _ (fun a => by match a with | ⟨0, _⟩ => rfl)

/-- Bias row 3 the region finds is the host's broadcast of its vector. -/
theorem V_v3 (c : Dev nD) : (V m c main_v3 : S1x512.Idx → EReal)
    = broadcastInDim S1x512 ![1] bcast_S512_S1x512_1 (m ((c : Thread nD τ).loc main_arg8)) := by
  dsimp only [Gen.V, Gen.hostOps0]; after_results

/-- Entry `(0, j)` of bias row 3 is the bias at `j`. -/
theorem V_v3_apply (c : Dev nD) (j : Fin 512) :
    (V m c main_v3 : S1x512.Idx → EReal) (ix2 (0 : Fin 1) j) = m ((c : Thread nD τ).loc main_arg8) (ix1 j) := by
  rw [V_v3]
  exact broadcastInDim_apply _ _ _ _ _ (fun a => by match a with | ⟨0, _⟩ => rfl)

/-- Bias row 4 the region finds is the host's broadcast of its vector. -/
theorem V_v4 (c : Dev nD) : (V m c main_v4 : S1x512.Idx → EReal)
    = broadcastInDim S1x512 ![1] bcast_S512_S1x512_1 (m ((c : Thread nD τ).loc main_arg10)) := by
  dsimp only [Gen.V, Gen.hostOps0]; after_results

/-- Entry `(0, j)` of bias row 4 is the bias at `j`. -/
theorem V_v4_apply (c : Dev nD) (j : Fin 512) :
    (V m c main_v4 : S1x512.Idx → EReal) (ix2 (0 : Fin 1) j) = m ((c : Thread nD τ).loc main_arg10) (ix1 j) := by
  rw [V_v4]
  exact broadcastInDim_apply _ _ _ _ _ (fun a => by match a with | ⟨0, _⟩ => rfl)

/-- Bias row 5 the region finds is the host's broadcast of its vector. -/
theorem V_v5 (c : Dev nD) : (V m c main_v5 : S1x512.Idx → EReal)
    = broadcastInDim S1x512 ![1] bcast_S512_S1x512_1 (m ((c : Thread nD τ).loc main_arg12)) := by
  dsimp only [Gen.V, Gen.hostOps0]; after_results

/-- Entry `(0, j)` of bias row 5 is the bias at `j`. -/
theorem V_v5_apply (c : Dev nD) (j : Fin 512) :
    (V m c main_v5 : S1x512.Idx → EReal) (ix2 (0 : Fin 1) j) = m ((c : Thread nD τ).loc main_arg12) (ix1 j) := by
  rw [V_v5]
  exact broadcastInDim_apply _ _ _ _ _ (fun a => by match a with | ⟨0, _⟩ => rfl)

end Cert.KernelIdeal.HostRows

end
-- ==== Proof.Cover.lean ====
/-
  The four blocks cover the result arrays.

  Grid point `t` writes back rows `1024 t … 1024 t + 1023` (all 512 columns) of each result array, and every point
  writes back. Row `p` lies in the block of point `p / 1024`.
-/
import proofs.«168683_g23931557773776_cont_8to1_961_20_alg».proof.Proof.Gen.KernelIdeal.Value

noncomputable section

namespace Cert.KernelIdeal.Cover

open Cert.KernelIdeal Cert.KernelIdeal.Gen Idealize.ShloMosaic Idealize.ShloMosaic.TcCoe Idealize.SL.Sem

/-- Every pair of block coordinates, row block below 4 and column block 0, is some point's. -/
theorem idx_onto13 : ∀ (q0 : Fin 4) (q1 : Fin 1), ∃ t : Fin cfg0.N, win0_13.index t = ![q0.val, q1.val] :=
  (by decide +kernel : ∀ (q0 : Fin 4) (q1 : Fin 1), ∃ t : Fin grid0.N, win0_13.index t = ![q0.val, q1.val])

/-- An index of the array is in point `t`'s block iff each coordinate is in the block's range on its axis. -/
theorem mem_blk13 (t : Fin cfg0.N) (i : S4096x512.Idx) :
    i ∈ ((cfg0.win 13).blk t).view.set ↔ ∀ a : Fin 2, win0_13.index t a * S1024x512.size a ≤ (i a).val ∧ (i a).val < win0_13.index t a * S1024x512.size a + S1024x512.size a := by
  show i ∈ ((View.whole main_v6_0).slice (win0_13.rect t)).set ↔ _
  rw [View.set_slice_whole, Rect.mem_set_unit]
  exact Iff.rfl

/-- Every pair of block coordinates, row block below 4 and column block 0, is some point's. -/
theorem idx_onto14 : ∀ (q0 : Fin 4) (q1 : Fin 1), ∃ t : Fin cfg0.N, win0_14.index t = ![q0.val, q1.val] :=
  (by decide +kernel : ∀ (q0 : Fin 4) (q1 : Fin 1), ∃ t : Fin grid0.N, win0_14.index t = ![q0.val, q1.val])

/-- An index of the array is in point `t`'s block iff each coordinate is in the block's range on its axis. -/
theorem mem_blk14 (t : Fin cfg0.N) (i : S4096x512.Idx) :
    i ∈ ((cfg0.win 14).blk t).view.set ↔ ∀ a : Fin 2, win0_14.index t a * S1024x512.size a ≤ (i a).val ∧ (i a).val < win0_14.index t a * S1024x512.size a + S1024x512.size a := by
  show i ∈ ((View.whole main_v6_1).slice (win0_14.rect t)).set ↔ _
  rw [View.set_slice_whole, Rect.mem_set_unit]
  exact Iff.rfl

/-- Every index of the first result array is in some writing point's block. -/
theorem cover13 (i : S4096x512.Idx) :
    ∃ t : Fin cfg0.N, (cfg0.win 13).flush t = true ∧ i ∈ ((cfg0.win 13).blk t).view.set := by
  have hi0 : (i 0).val < 4096 := (i 0).isLt
  have hi1 : (i 1).val < 512 := (i 1).isLt
  obtain ⟨t, ht⟩ := idx_onto13 ⟨(i 0).val / 1024, by omega⟩ ⟨(i 1).val / 512, by omega⟩
  have q0 : win0_13.index t (0 : Fin 2) = (i 0).val / 1024 := congrFun ht 0
  have q1 : win0_13.index t (1 : Fin 2) = (i 1).val / 512 := congrFun ht 1
  refine ⟨t, flush0_13 t, ?_⟩
  rw [mem_blk13]
  intro a
  match a with
  | ⟨0, _⟩ => show win0_13.index t (0 : Fin 2) * 1024 ≤ (i 0).val ∧ (i 0).val < win0_13.index t (0 : Fin 2) * 1024 + 1024; omega
  | ⟨1, _⟩ => show win0_13.index t (1 : Fin 2) * 512 ≤ (i 1).val ∧ (i 1).val < win0_13.index t (1 : Fin 2) * 512 + 512; omega

/-- Every index of the second result array is in some writing point's block. -/
theorem cover14 (i : S4096x512.Idx) :
    ∃ t : Fin cfg0.N, (cfg0.win 14).flush t = true ∧ i ∈ ((cfg0.win 14).blk t).view.set := by
  have hi0 : (i 0).val < 4096 := (i 0).isLt
  have hi1 : (i 1).val < 512 := (i 1).isLt
  obtain ⟨t, ht⟩ := idx_onto14 ⟨(i 0).val / 1024, by omega⟩ ⟨(i 1).val / 512, by omega⟩
  have q0 : win0_14.index t (0 : Fin 2) = (i 0).val / 1024 := congrFun ht 0
  have q1 : win0_14.index t (1 : Fin 2) = (i 1).val / 512 := congrFun ht 1
  refine ⟨t, flush0_14 t, ?_⟩
  rw [mem_blk14]
  intro a
  match a with
  | ⟨0, _⟩ => show win0_14.index t (0 : Fin 2) * 1024 ≤ (i 0).val ∧ (i 0).val < win0_14.index t (0 : Fin 2) * 1024 + 1024; omega
  | ⟨1, _⟩ => show win0_14.index t (1 : Fin 2) * 512 ≤ (i 1).val ∧ (i 1).val < win0_14.index t (1 : Fin 2) * 512 + 512; omega

end Cert.KernelIdeal.Cover

end
-- ==== Proof.Whole.lean ====
/-
  The kernel's two result arrays after the run, as one function of the argument arrays.

  Grid point `t` (of four) owns rows `1024 t … 1024 t + 1023` of every batch-indexed array; the weights and the bias
  rows are the same whole block at every point. What point `t` writes back is its two stored tiles laid one above
  the other, and each tile's entry is the closed-form cell of the corresponding row (Tile). The four blocks cover
  the result, so the result array is `G` of the argument arrays; the time column and the bias rows the region
  reads were made from the vectors `ts`, `bb`, `b_ff1`, … by the host's broadcasts before the region.
-/
import proofs.«168683_g23931557773776_cont_8to1_961_20_alg».proof.Proof.Gen.KernelIdeal.Value
import proofs.«168683_g23931557773776_cont_8to1_961_20_alg».proof.Proof.Tile
import proofs.«168683_g23931557773776_cont_8to1_961_20_alg».proof.Proof.HostRows
import proofs.«168683_g23931557773776_cont_8to1_961_20_alg».proof.Proof.Cover

noncomputable section

namespace Cert.KernelIdeal.Whole

open Cert.KernelIdeal Cert.KernelIdeal.Gen Idealize.ShloMosaic Idealize.ShloMosaic.TcCoe Idealize.SL.Sem
open Idealize.ShloMosaic.ValueIdx Cert.CfcSpec
open Idealize.ShloMosaic.Pipeline (Dat)

/-! ## One block: the two stored tiles laid one above the other -/

theorem hz2 : (![0, 0] : Fin 2 → Nat) = fun _ => 0 := funext fun a => by fin_cases a <;> rfl

/-- The cell depends on its fourteen arguments only through their values. -/
theorem cell_congr {a a' : Fin 128 → EReal} {h h' : Fin 512 → EReal} {τ τ' : EReal}
    {Wb Wb' : (⟨2, ![640, 512]⟩ : Shape).Idx → EReal} {bb bb' : Fin 512 → EReal}
    {W1 W1' : (⟨2, ![512, 512]⟩ : Shape).Idx → EReal} {b1 b1' : Fin 512 → EReal}
    {W2 W2' : (⟨2, ![512, 512]⟩ : Shape).Idx → EReal} {b2 b2' : Fin 512 → EReal}
    {Wa Wa' : (⟨2, ![512, 512]⟩ : Shape).Idx → EReal} {ba ba' : Fin 512 → EReal}
    {Wt Wt' : (⟨2, ![512, 512]⟩ : Shape).Idx → EReal} {bt bt' : Fin 512 → EReal} {q q' : Fin 512}
    (ea : ∀ k, a k = a' k) (eh : ∀ k, h k = h' k) (eτ : τ = τ') (eWb : Wb = Wb') (ebb : ∀ j, bb j = bb' j)
    (eW1 : W1 = W1') (eb1 : ∀ j, b1 j = b1' j) (eW2 : W2 = W2') (eb2 : ∀ j, b2 j = b2' j)
    (eWa : Wa = Wa') (eba : ∀ j, ba j = ba' j) (eWt : Wt = Wt') (ebt : ∀ j, bt j = bt' j) (eq : q = q') :
    cell a h τ Wb bb W1 b1 W2 b2 Wa ba Wt bt q = cell a' h' τ' Wb' bb' W1' b1' W2' b2' Wa' ba' Wt' bt' q' := by
  obtain rfl : a = a' := funext ea
  obtain rfl : h = h' := funext eh
  obtain rfl : bb = bb' := funext ebb
  obtain rfl : b1 = b1' := funext eb1
  obtain rfl : b2 = b2' := funext eb2
  obtain rfl : ba = ba' := funext eba
  obtain rfl : bt = bt' := funext ebt
  subst eτ eWb eW1 eW2 eWa eWt eq
  rfl

/-- The closed-form cell over ONE grid point's blocks: entry `(r, q)` of the [1024, 512] result block is the cell of
    row `r` of the point's input blocks, of the whole weight matrices and of the bias rows. -/
def cellBlk (x0 : Vec Ideal S1024x128 .f32) (x1 : Vec Ideal S1024x512 .f32) (x2 : Vec Ideal S1024x1 .f32) (x3 : Vec Ideal S640x512 .f32) (x4 : Vec Ideal S1x512 .f32) (x5 : Vec Ideal S512x512 .f32) (x6 : Vec Ideal S1x512 .f32) (x7 : Vec Ideal S512x512 .f32) (x8 : Vec Ideal S1x512 .f32) (x9 : Vec Ideal S512x512 .f32) (x10 : Vec Ideal S1x512 .f32) (x11 : Vec Ideal S512x512 .f32) (x12 : Vec Ideal S1x512 .f32) : S1024x512.Idx → EReal :=
  fun y => cell (fun k => x0 (ix2 (y 0) k)) (fun k => x1 (ix2 (y 0) k)) (x2 (ix2 (y 0) (0 : Fin 1))) x3
    (fun j => x4 (ix2 (0 : Fin 1) j)) x5 (fun j => x6 (ix2 (0 : Fin 1) j)) x7 (fun j => x8 (ix2 (0 : Fin 1) j))
    x9 (fun j => x10 (ix2 (0 : Fin 1) j)) x11 (fun j => x12 (ix2 (0 : Fin 1) j)) (y 1)

/-- A bias row loaded whole reads the row. -/
theorem ld_row (X : Vec Ideal S1x512 .f32) (j : Fin 512) : View.ld X r0_4 (ix2 (0 : Fin 1) j) = X (ix2 (0 : Fin 1) j) :=
  congrFun (View.ld_unit_zero (S := S1x512) hz2 _ X) _

/-- The first tile's payload (rows 0–511 of the block) is the block's closed form at its rows. -/
theorem first_piece (x0 : Vec Ideal S1024x128 .f32) (x1 : Vec Ideal S1024x512 .f32) (x2 : Vec Ideal S1024x1 .f32) (x3 : Vec Ideal S640x512 .f32) (x4 : Vec Ideal S1x512 .f32) (x5 : Vec Ideal S512x512 .f32) (x6 : Vec Ideal S1x512 .f32) (x7 : Vec Ideal S512x512 .f32) (x8 : Vec Ideal S1x512 .f32) (x9 : Vec Ideal S512x512 .f32) (x10 : Vec Ideal S1x512 .f32) (x11 : Vec Ideal S512x512 .f32) (x12 : Vec Ideal S1x512 .f32) (x : S512x512.Idx) :
    k0_pay11 (F := Ideal) (k0_pay5 (View.ld x9 r0_1)) (k0_pay6 (View.ld x11 r0_1)) (k0_pay7 (View.ld x3 r0_0) (View.ld x0 r0_2) (View.ld x1 r0_3) (View.ld x4 r0_4)) (k0_pay8 (View.ld x3 r0_0) (View.ld x5 r0_1) (View.ld x0 r0_2) (View.ld x1 r0_3) (View.ld x4 r0_4) (View.ld x6 r0_4)) (k0_pay9 (View.ld x3 r0_0) (View.ld x7 r0_1) (View.ld x0 r0_2) (View.ld x1 r0_3) (View.ld x4 r0_4)) (k0_pay10 (View.ld x8 r0_4)) (View.ld x10 r0_4) (View.ld x12 r0_4) (View.ld x2 r0_5) x
      = cellBlk x0 x1 x2 x3 x4 x5 x6 x7 x8 x9 x10 x11 x12 (r0_3.emb x) := by
  obtain ⟨r, q, rfl⟩ : ∃ r q, x = ix2 r q := ⟨x 0, x 1, eq_ix2 x⟩
  rw [Tile.first_tile]
  refine cell_congr (fun k => congrArg x0 (funext fun a => Fin.ext ?_)) (fun k => congrArg x1 (funext fun a => Fin.ext ?_))
    (congrArg x2 (funext fun a => Fin.ext ?_)) (View.ld_unit_zero (S := S640x512) hz2 _ x3) (ld_row x4)
    (View.ld_unit_zero (S := S512x512) hz2 _ x5) (ld_row x6) (View.ld_unit_zero (S := S512x512) hz2 _ x7) (ld_row x8)
    (View.ld_unit_zero (S := S512x512) hz2 _ x9) (ld_row x10) (View.ld_unit_zero (S := S512x512) hz2 _ x11) (ld_row x12)
    (Fin.ext ?_)
  · match a with
    | ⟨0, _⟩ => rfl
    | ⟨1, _⟩ => show 0 + 1 * k.val = k.val; omega
  · match a with
    | ⟨0, _⟩ => rfl
    | ⟨1, _⟩ => show 0 + 1 * k.val = k.val; omega
  · match a with
    | ⟨0, _⟩ => rfl
    | ⟨1, _⟩ => rfl
  · show q.val = 0 + 1 * q.val; omega

/-- The second tile's payload (rows 512–1023 of the block) is the block's closed form at its rows. -/
theorem second_piece (x0 : Vec Ideal S1024x128 .f32) (x1 : Vec Ideal S1024x512 .f32) (x2 : Vec Ideal S1024x1 .f32) (x3 : Vec Ideal S640x512 .f32) (x4 : Vec Ideal S1x512 .f32) (x5 : Vec Ideal S512x512 .f32) (x6 : Vec Ideal S1x512 .f32) (x7 : Vec Ideal S512x512 .f32) (x8 : Vec Ideal S1x512 .f32) (x9 : Vec Ideal S512x512 .f32) (x10 : Vec Ideal S1x512 .f32) (x11 : Vec Ideal S512x512 .f32) (x12 : Vec Ideal S1x512 .f32) (x : S512x512.Idx) :
    k0_pay1 (F := Ideal) (k0_pay3 (View.ld x5 r0_1)) (k0_pay4 (View.ld x7 r0_1)) (k0_pay5 (View.ld x9 r0_1)) (k0_pay6 (View.ld x11 r0_1)) (k0_pay12 (k0_pay2 (View.ld x3 r0_0)) (View.ld x0 r0_6) (View.ld x1 r0_7) (View.ld x4 r0_4)) (View.ld x6 r0_4) (View.ld x8 r0_4) (View.ld x10 r0_4) (View.ld x12 r0_4) (View.ld x2 r0_8) x
      = cellBlk x0 x1 x2 x3 x4 x5 x6 x7 x8 x9 x10 x11 x12 (r0_7.emb x) := by
  obtain ⟨r, q, rfl⟩ : ∃ r q, x = ix2 r q := ⟨x 0, x 1, eq_ix2 x⟩
  rw [Tile.second_tile]
  refine cell_congr (fun k => congrArg x0 (funext fun a => Fin.ext ?_)) (fun k => congrArg x1 (funext fun a => Fin.ext ?_))
    (congrArg x2 (funext fun a => Fin.ext ?_)) (View.ld_unit_zero (S := S640x512) hz2 _ x3) (ld_row x4)
    (View.ld_unit_zero (S := S512x512) hz2 _ x5) (ld_row x6) (View.ld_unit_zero (S := S512x512) hz2 _ x7) (ld_row x8)
    (View.ld_unit_zero (S := S512x512) hz2 _ x9) (ld_row x10) (View.ld_unit_zero (S := S512x512) hz2 _ x11) (ld_row x12)
    (Fin.ext ?_)
  · match a with
    | ⟨0, _⟩ => rfl
    | ⟨1, _⟩ => show 0 + 1 * k.val = k.val; omega
  · match a with
    | ⟨0, _⟩ => rfl
    | ⟨1, _⟩ => show 0 + 1 * k.val = k.val; omega
  · match a with
    | ⟨0, _⟩ => rfl
    | ⟨1, _⟩ => rfl
  · show q.val = 0 + 1 * q.val; omega

/-- What the body leaves in the first result window's buffer is the block's closed form: each of its two stores is the
    closed form on its rows, and the two stores tile the block. -/
theorem out13_eq (x0 : Vec Ideal S1024x128 .f32) (x1 : Vec Ideal S1024x512 .f32) (x2 : Vec Ideal S1024x1 .f32) (x3 : Vec Ideal S640x512 .f32) (x4 : Vec Ideal S1x512 .f32) (x5 : Vec Ideal S512x512 .f32) (x6 : Vec Ideal S1x512 .f32) (x7 : Vec Ideal S512x512 .f32) (x8 : Vec Ideal S1x512 .f32) (x9 : Vec Ideal S512x512 .f32) (x10 : Vec Ideal S1x512 .f32) (x11 : Vec Ideal S512x512 .f32) (x12 : Vec Ideal S1x512 .f32) : out0_13 (F := Ideal) x0 x1 x2 x3 x4 x5 x6 x7 x8 x9 x10 x11 x12 = cellBlk x0 x1 x2 x3 x4 x5 x6 x7 x8 x9 x10 x11 x12 := by
  funext y
  unfold out0_13
  refine View.canon_apply_of_pieces (Val := Elt Ideal) (cellBlk x0 x1 x2 x3 x4 x5 x6 x7 x8 x9 x10 x11 x12) _ ?_ y (cover0_13 _ _ y)
  intro p hp x
  simp only [List.mem_cons, List.not_mem_nil, or_false] at hp
  rcases hp with rfl | rfl
  · exact second_piece x0 x1 x2 x3 x4 x5 x6 x7 x8 x9 x10 x11 x12 x
  · exact first_piece x0 x1 x2 x3 x4 x5 x6 x7 x8 x9 x10 x11 x12 x

/-- The second result window's buffer is left with the same two stores. -/
theorem out14_eq (x0 : Vec Ideal S1024x128 .f32) (x1 : Vec Ideal S1024x512 .f32) (x2 : Vec Ideal S1024x1 .f32) (x3 : Vec Ideal S640x512 .f32) (x4 : Vec Ideal S1x512 .f32) (x5 : Vec Ideal S512x512 .f32) (x6 : Vec Ideal S1x512 .f32) (x7 : Vec Ideal S512x512 .f32) (x8 : Vec Ideal S1x512 .f32) (x9 : Vec Ideal S512x512 .f32) (x10 : Vec Ideal S1x512 .f32) (x11 : Vec Ideal S512x512 .f32) (x12 : Vec Ideal S1x512 .f32) : out0_14 (F := Ideal) x0 x1 x2 x3 x4 x5 x6 x7 x8 x9 x10 x11 x12 = cellBlk x0 x1 x2 x3 x4 x5 x6 x7 x8 x9 x10 x11 x12 :=
  out13_eq x0 x1 x2 x3 x4 x5 x6 x7 x8 x9 x10 x11 x12

variable (m : (ℓ : Loc nD τ sig) → Buf (Elt Ideal) ℓ) (ρ : Dev nD → PrngReg)

/-- The cell's result as a function of core `c`'s argument arrays. -/
def result (c : Dev nD) : S4096x512.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-! ## The windows' blocks as entries of the argument arrays -/

/-- The printed index maps, decided over the four grid points: the two inputs, the time column and the second result
    move with the first result (same block row, block column 0). -/
theorem idx_facts : ∀ t : Fin cfg0.N,
    win0_0.index t (0 : Fin 2) = win0_13.index t (0 : Fin 2) ∧ win0_0.index t (1 : Fin 2) = 0
    ∧ win0_1.index t (0 : Fin 2) = win0_13.index t (0 : Fin 2) ∧ win0_1.index t (1 : Fin 2) = 0
    ∧ win0_2.index t (0 : Fin 2) = win0_13.index t (0 : Fin 2) ∧ win0_2.index t (1 : Fin 2) = 0
    ∧ win0_13.index t (1 : Fin 2) = 0
    ∧ win0_14.index t (0 : Fin 2) = win0_13.index t (0 : Fin 2) ∧ win0_14.index t (1 : Fin 2) = 0 :=
  (by decide +kernel : ∀ t : Fin grid0.N, _)

/-- The weights' and the bias rows' windows sit at block (0, 0) at every point. -/
theorem idx_whole : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0 :=
  (by decide +kernel : ∀ t : Fin grid0.N, _)

/-- Window 0's block at point `t` is rows `1024 t …` of its array: entry `x` of the block is the array's entry `i` whose
    row is `1024 t + x 0` and whose column is `x 1`. -/
theorem iblk0_apply (c : Dev nD) (t : Fin cfg0.N) (x : S1024x128.Idx) (i : S4096x128.Idx)
    (h0 : (i 0).val = win0_13.index t (0 : Fin 2) * 1024 + (x 0).val) (h1 : (i 1).val = (x 1).val) :
    (iblk m c 0 t : Vec Ideal S1024x128 .f32) x = ((m ((c : Thread nD τ).loc main_arg0)) : S4096x128.Idx → EReal) i := by
  obtain ⟨e00, e01, e10, e11, e20, e21, -⟩ := idx_facts t
  unfold iblk
  rw [View.read_apply]
  refine (congrFun (V_main_arg0 m c) _).trans (congrArg (m ((c : Thread nD τ).loc main_arg0)) (funext fun a => Fin.ext ?_))
  match a with
  | ⟨0, _⟩ => show win0_0.index t (0 : Fin 2) * 1024 + 1 * (x 0).val = (i 0).val; omega
  | ⟨1, _⟩ => show win0_0.index t (1 : Fin 2) * 128 + 1 * (x 1).val = (i 1).val; omega

/-- Window 1's block at point `t` is rows `1024 t …` of its array: entry `x` of the block is the array's entry `i` whose
    row is `1024 t + x 0` and whose column is `x 1`. -/
theorem iblk1_apply (c : Dev nD) (t : Fin cfg0.N) (x : S1024x512.Idx) (i : S4096x512.Idx)
    (h0 : (i 0).val = win0_13.index t (0 : Fin 2) * 1024 + (x 0).val) (h1 : (i 1).val = (x 1).val) :
    (iblk m c 1 t : Vec Ideal S1024x512 .f32) x = ((m ((c : Thread nD τ).loc main_arg1)) : S4096x512.Idx → EReal) i := by
  obtain ⟨e00, e01, e10, e11, e20, e21, -⟩ := idx_facts t
  unfold iblk
  rw [View.read_apply]
  refine (congrFun (V_main_arg1 m c) _).trans (congrArg (m ((c : Thread nD τ).loc main_arg1)) (funext fun a => Fin.ext ?_))
  match a with
  | ⟨0, _⟩ => show win0_1.index t (0 : Fin 2) * 1024 + 1 * (x 0).val = (i 0).val; omega
  | ⟨1, _⟩ => show win0_1.index t (1 : Fin 2) * 512 + 1 * (x 1).val = (i 1).val; omega

/-- The time column's block at point `t`: entry `(r, 0)` is `ts` at `1024 t + r` (the column is the host's broadcast
    of the vector). -/
theorem iblk2_apply (c : Dev nD) (t : Fin cfg0.N) (r : Fin 1024) (p : Fin 4096)
    (hp : p.val = win0_13.index t (0 : Fin 2) * 1024 + r.val) :
    (iblk m c 2 t : Vec Ideal S1024x1 .f32) (ix2 r (0 : Fin 1)) = ((m ((c : Thread nD τ).loc main_arg2)) : S4096.Idx → EReal) (ix1 p) := by
  obtain ⟨e00, e01, e10, e11, e20, e21, -⟩ := idx_facts t
  unfold iblk
  rw [View.read_apply]
  refine Eq.trans (congrArg (V m c main_v0 : S4096x1.Idx → EReal) (funext fun a => Fin.ext ?_)) (HostRows.V_v0_apply m c p)
  match a with
  | ⟨0, _⟩ => show win0_2.index t (0 : Fin 2) * 1024 + 1 * r.val = p.val; omega
  | ⟨1, _⟩ => show win0_2.index t (1 : Fin 2) * 1 + 1 * 0 = 0; omega

/-- Window 3's block is its whole array at every point. -/
theorem iblk3_eq (c : Dev nD) (t : Fin cfg0.N) :
    (iblk m c 3 t : Vec Ideal S640x512 .f32) = ((m ((c : Thread nD τ).loc main_arg3)) : S640x512.Idx → EReal) := by
  have e := idx_whole t
  funext x
  unfold iblk
  rw [View.read_apply]
  refine (congrFun (V_main_arg3 m c) _).trans (congrArg (m ((c : Thread nD τ).loc main_arg3)) (funext fun a => Fin.ext ?_))
  match a with
  | ⟨0, _⟩ => show win0_3.index t (0 : Fin 2) * 640 + 1 * (x 0).val = (x 0).val; omega
  | ⟨1, _⟩ => show win0_3.index t (1 : Fin 2) * 512 + 1 * (x 1).val = (x 1).val; omega

/-- Window 4's block is the whole bias row the host made: its entry `(0, j)` is the bias vector at `j`. -/
theorem iblk4_apply (c : Dev nD) (t : Fin cfg0.N) (j : Fin 512) :
    (iblk m c 4 t : Vec Ideal S1x512 .f32) (ix2 (0 : Fin 1) j) = ((m ((c : Thread nD τ).loc main_arg4)) : S512.Idx → EReal) (ix1 j) := by
  have e := idx_whole t
  unfold iblk
  rw [View.read_apply]
  refine Eq.trans (congrArg (V m c main_v1 : S1x512.Idx → EReal) (funext fun a => Fin.ext ?_)) (HostRows.V_v1_apply m c j)
  match a with
  | ⟨0, _⟩ => show win0_4.index t (0 : Fin 2) * 1 + 1 * 0 = 0; omega
  | ⟨1, _⟩ => show win0_4.index t (1 : Fin 2) * 512 + 1 * j.val = j.val; omega

/-- Window 5's block is its whole array at every point. -/
theorem iblk5_eq (c : Dev nD) (t : Fin cfg0.N) :
    (iblk m c 5 t : Vec Ideal S512x512 .f32) = ((m ((c : Thread nD τ).loc main_arg5)) : S512x512.Idx → EReal) := by
  have e := idx_whole t
  funext x
  unfold iblk
  rw [View.read_apply]
  refine (congrFun (V_main_arg5 m c) _).trans (congrArg (m ((c : Thread nD τ).loc main_arg5)) (funext fun a => Fin.ext ?_))
  match a with
  | ⟨0, _⟩ => show win0_5.index t (0 : Fin 2) * 512 + 1 * (x 0).val = (x 0).val; omega
  | ⟨1, _⟩ => show win0_5.index t (1 : Fin 2) * 512 + 1 * (x 1).val = (x 1).val; omega

/-- Window 6's block is the whole bias row the host made: its entry `(0, j)` is the bias vector at `j`. -/
theorem iblk6_apply (c : Dev nD) (t : Fin cfg0.N) (j : Fin 512) :
    (iblk m c 6 t : Vec Ideal S1x512 .f32) (ix2 (0 : Fin 1) j) = ((m ((c : Thread nD τ).loc main_arg6)) : S512.Idx → EReal) (ix1 j) := by
  have e := idx_whole t
  unfold iblk
  rw [View.read_apply]
  refine Eq.trans (congrArg (V m c main_v2 : S1x512.Idx → EReal) (funext fun a => Fin.ext ?_)) (HostRows.V_v2_apply m c j)
  match a with
  | ⟨0, _⟩ => show win0_6.index t (0 : Fin 2) * 1 + 1 * 0 = 0; omega
  | ⟨1, _⟩ => show win0_6.index t (1 : Fin 2) * 512 + 1 * j.val = j.val; omega

/-- Window 7's block is its whole array at every point. -/
theorem iblk7_eq (c : Dev nD) (t : Fin cfg0.N) :
    (iblk m c 7 t : Vec Ideal S512x512 .f32) = ((m ((c : Thread nD τ).loc main_arg7)) : S512x512.Idx → EReal) := by
  have e := idx_whole t
  funext x
  unfold iblk
  rw [View.read_apply]
  refine (congrFun (V_main_arg7 m c) _).trans (congrArg (m ((c : Thread nD τ).loc main_arg7)) (funext fun a => Fin.ext ?_))
  match a with
  | ⟨0, _⟩ => show win0_7.index t (0 : Fin 2) * 512 + 1 * (x 0).val = (x 0).val; omega
  | ⟨1, _⟩ => show win0_7.index t (1 : Fin 2) * 512 + 1 * (x 1).val = (x 1).val; omega

/-- Window 8's block is the whole bias row the host made: its entry `(0, j)` is the bias vector at `j`. -/
theorem iblk8_apply (c : Dev nD) (t : Fin cfg0.N) (j : Fin 512) :
    (iblk m c 8 t : Vec Ideal S1x512 .f32) (ix2 (0 : Fin 1) j) = ((m ((c : Thread nD τ).loc main_arg8)) : S512.Idx → EReal) (ix1 j) := by
  have e := idx_whole t
  unfold iblk
  rw [View.read_apply]
  refine Eq.trans (congrArg (V m c main_v3 : S1x512.Idx → EReal) (funext fun a => Fin.ext ?_)) (HostRows.V_v3_apply m c j)
  match a with
  | ⟨0, _⟩ => show win0_8.index t (0 : Fin 2) * 1 + 1 * 0 = 0; omega
  | ⟨1, _⟩ => show win0_8.index t (1 : Fin 2) * 512 + 1 * j.val = j.val; omega

/-- Window 9's block is its whole array at every point. -/
theorem iblk9_eq (c : Dev nD) (t : Fin cfg0.N) :
    (iblk m c 9 t : Vec Ideal S512x512 .f32) = ((m ((c : Thread nD τ).loc main_arg9)) : S512x512.Idx → EReal) := by
  have e := idx_whole t
  funext x
  unfold iblk
  rw [View.read_apply]
  refine (congrFun (V_main_arg9 m c) _).trans (congrArg (m ((c : Thread nD τ).loc main_arg9)) (funext fun a => Fin.ext ?_))
  match a with
  | ⟨0, _⟩ => show win0_9.index t (0 : Fin 2) * 512 + 1 * (x 0).val = (x 0).val; omega
  | ⟨1, _⟩ => show win0_9.index t (1 : Fin 2) * 512 + 1 * (x 1).val = (x 1).val; omega

/-- Window 10's block is the whole bias row the host made: its entry `(0, j)` is the bias vector at `j`. -/
theorem iblk10_apply (c : Dev nD) (t : Fin cfg0.N) (j : Fin 512) :
    (iblk m c 10 t : Vec Ideal S1x512 .f32) (ix2 (0 : Fin 1) j) = ((m ((c : Thread nD τ).loc main_arg10)) : S512.Idx → EReal) (ix1 j) := by
  have e := idx_whole t
  unfold iblk
  rw [View.read_apply]
  refine Eq.trans (congrArg (V m c main_v4 : S1x512.Idx → EReal) (funext fun a => Fin.ext ?_)) (HostRows.V_v4_apply m c j)
  match a with
  | ⟨0, _⟩ => show win0_10.index t (0 : Fin 2) * 1 + 1 * 0 = 0; omega
  | ⟨1, _⟩ => show win0_10.index t (1 : Fin 2) * 512 + 1 * j.val = j.val; omega

/-- Window 11's block is its whole array at every point. -/
theorem iblk11_eq (c : Dev nD) (t : Fin cfg0.N) :
    (iblk m c 11 t : Vec Ideal S512x512 .f32) = ((m ((c : Thread nD τ).loc main_arg11)) : S512x512.Idx → EReal) := by
  have e := idx_whole t
  funext x
  unfold iblk
  rw [View.read_apply]
  refine (congrFun (V_main_arg11 m c) _).trans (congrArg (m ((c : Thread nD τ).loc main_arg11)) (funext fun a => Fin.ext ?_))
  match a with
  | ⟨0, _⟩ => show win0_11.index t (0 : Fin 2) * 512 + 1 * (x 0).val = (x 0).val; omega
  | ⟨1, _⟩ => show win0_11.index t (1 : Fin 2) * 512 + 1 * (x 1).val = (x 1).val; omega

/-- Window 12's block is the whole bias row the host made: its entry `(0, j)` is the bias vector at `j`. -/
theorem iblk12_apply (c : Dev nD) (t : Fin cfg0.N) (j : Fin 512) :
    (iblk m c 12 t : Vec Ideal S1x512 .f32) (ix2 (0 : Fin 1) j) = ((m ((c : Thread nD τ).loc main_arg12)) : S512.Idx → EReal) (ix1 j) := by
  have e := idx_whole t
  unfold iblk
  rw [View.read_apply]
  refine Eq.trans (congrArg (V m c main_v5 : S1x512.Idx → EReal) (funext fun a => Fin.ext ?_)) (HostRows.V_v5_apply m c j)
  match a with
  | ⟨0, _⟩ => show win0_12.index t (0 : Fin 2) * 1 + 1 * 0 = 0; omega
  | ⟨1, _⟩ => show win0_12.index t (1 : Fin 2) * 512 + 1 * j.val = j.val; omega

/-! ## What a point writes back -/

/-- The block's closed form over point `t`'s blocks, at block entry `y`, is the cell's result at the array entry `i`
    in row `1024 t + y 0` and column `y 1`. -/
theorem point_eq (c : Dev nD) (t : Fin cfg0.N) (y : S1024x512.Idx) (i : S4096x512.Idx)
    (h0 : (i 0).val = win0_13.index t (0 : Fin 2) * 1024 + (y 0).val) (h1 : i 1 = y 1) :
    cellBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = result m c i := by
  unfold cellBlk result G
  exact cell_congr (fun k => iblk0_apply m c t _ _ h0 rfl) (fun k => iblk1_apply m c t _ _ h0 rfl)
    (iblk2_apply m c t (y 0) (i 0) h0) (iblk3_eq m c t) (iblk4_apply m c t) (iblk5_eq m c t) (iblk6_apply m c t)
    (iblk7_eq m c t) (iblk8_apply m c t) (iblk9_eq m c t) (iblk10_apply m c t) (iblk11_eq m c t) (iblk12_apply m c t) h1.symm

/-- WHAT POINT `t` WRITES BACK to the first result array is block `t` of the cell's result. -/
theorem flushed13_eq (c : Dev nD) (t : Fin cfg0.N) :
    (dats m 0 c).flushed 13 t = ((cfg0.win 13).blk t).view.read (Elt Ideal) (result m c) := by
  obtain ⟨-, -, -, -, -, -, e131, e140, e141⟩ := idx_facts t
  rw [Value.flushed13]
  refine (congrArg ((cfg0.win 13).cut (grid0.coords t)) (out13_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t))).trans ?_
  funext y
  show cellBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = result m c (((cfg0.win 13).blk t).view.emb y)
  refine point_eq m c t y _ ?_ (Fin.ext ?_)
  · show win0_13.index t (0 : Fin 2) * 1024 + 1 * (y 0).val = _; omega
  · show win0_13.index t (1 : Fin 2) * 512 + 1 * (y 1).val = (y 1).val; omega

/-- WHAT POINT `t` WRITES BACK to the second result array is block `t` of the cell's result. -/
theorem flushed14_eq (c : Dev nD) (t : Fin cfg0.N) :
    (dats m 0 c).flushed 14 t = ((cfg0.win 14).blk t).view.read (Elt Ideal) (result m c) := by
  obtain ⟨-, -, -, -, -, -, e131, e140, e141⟩ := idx_facts t
  rw [Value.flushed14]
  refine (congrArg ((cfg0.win 14).cut (grid0.coords t)) (out14_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t))).trans ?_
  funext y
  show cellBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = result m c (((cfg0.win 14).blk t).view.emb y)
  refine point_eq m c t y _ ?_ (Fin.ext ?_)
  · show win0_14.index t (0 : Fin 2) * 1024 + 1 * (y 0).val = _; omega
  · show win0_14.index t (1 : Fin 2) * 512 + 1 * (y 1).val = (y 1).val; omega

/-- The first result array after the run is the cell's result. -/
theorem final13 (c : Dev nD) : (dats m 0 c).arrAt 13 cfg0.N = result m c :=
  (dats m 0 c).arrAt_eq_of_cover 13 (result m c) (fun t _ => flushed13_eq m c t) Cover.cover13

/-- The second result array after the run is the cell's result. -/
theorem final14 (c : Dev nD) : (dats m 0 c).arrAt 14 cfg0.N = result m c :=
  (dats m 0 c).arrAt_eq_of_cover 14 (result m c) (fun t _ => flushed14_eq m c t) Cover.cover14

/-- The kernel's run, read: both result arrays end at the cell's result, the arguments unchanged. -/
theorem run : θ_run defs (onTc (τ := τ) (main (F := Ideal))) ⟨m, fun _ => 0, ρ⟩ fun r => ∀ c : Dev nD,
      r.2.mem ((c : Thread nD τ).loc main_v6_0) = result m c
      ∧ r.2.mem ((c : Thread nD τ).loc main_v6_1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final13 m c), (h c).2.1.trans (final14 m c), (h c).2.2⟩)
    (Value.run_blocks m ρ)

end Cert.KernelIdeal.Whole

end
-- ==== Proof.RefCell.lean ====
/-
  The reference's result, one operation at a time, is the closed-form cell.

  The reference concatenates the two inputs along the feature axis and multiplies by the whole backbone matrix: entry
  `(p, j)` is a sum over 640 indices whose first 128 terms read `input` and whose last 512 read `hx`, which is the
  split sum of the closed form. It spells the logistic weight as `1 / (1 + exp (−y))`, which is `logistic y` by definition,
  and the interpolation as `ff1 · (1 − σ) + σ · ff2`, equal to `ff1 + σ · (ff2 − ff1)` because `tanh` and `logistic`
  only take real values.
-/
import proofs.«168683_g23931557773776_cont_8to1_961_20_alg».proof.Proof.Gen.ReferenceIdeal.Read
import proofs.«168683_g23931557773776_cont_8to1_961_20_alg».proof.Proof.Spec
import Idealize.ShloMosaic.Lib.IdealHost

noncomputable section

namespace Cert.ReferenceIdeal.RefValue

open Cert.ReferenceIdeal Cert.ReferenceIdeal.Gen Idealize.ShloMosaic Idealize.ShloMosaic.TcCoe Idealize.SL.Sem
open Idealize.ShloMosaic.ValueIdx Cert.CfcSpec

/-! ## Indices: the composed index functions of the stages are the coordinate indices -/

theorem lidx_v1 (p : Fin 4096) (j : Fin 512) (k : Fin 640) : Read.lidx_main_v1 (ix2 p j) k = ix2 p k :=
  funext fun a => Fin.ext (by match a with | ⟨0, _⟩ => rfl | ⟨1, _⟩ => rfl)
theorem ridx_v1 (p : Fin 4096) (j : Fin 512) (k : Fin 640) : Read.ridx_main_v1 (ix2 p j) k = ix2 k j :=
  funext fun a => Fin.ext (by match a with | ⟨0, _⟩ => rfl | ⟨1, _⟩ => rfl)

theorem lidx_v6 (p : Fin 4096) (q : Fin 512) (k : Fin 512) : Read.lidx_main_v6 (ix2 p q) k = ix2 p k :=
  funext fun a => Fin.ext (by match a with | ⟨0, _⟩ => rfl | ⟨1, _⟩ => rfl)
theorem ridx_v6 (p : Fin 4096) (q : Fin 512) (k : Fin 512) : Read.ridx_main_v6 (ix2 p q) k = ix2 k q :=
  funext fun a => Fin.ext (by match a with | ⟨0, _⟩ => rfl | ⟨1, _⟩ => rfl)
theorem lidx_v11 (p : Fin 4096) (q : Fin 512) (k : Fin 512) : Read.lidx_main_v11 (ix2 p q) k = ix2 p k :=
  funext fun a => Fin.ext (by match a with | ⟨0, _⟩ => rfl | ⟨1, _⟩ => rfl)
theorem ridx_v11 (p : Fin 4096) (q : Fin 512) (k : Fin 512) : Read.ridx_main_v11 (ix2 p q) k = ix2 k q :=
  funext fun a => Fin.ext (by match a with | ⟨0, _⟩ => rfl | ⟨1, _⟩ => rfl)
theorem lidx_v16 (p : Fin 4096) (q : Fin 512) (k : Fin 512) : Read.lidx_main_v16 (ix2 p q) k = ix2 p k :=
  funext fun a => Fin.ext (by match a with | ⟨0, _⟩ => rfl | ⟨1, _⟩ => rfl)
theorem ridx_v16 (p : Fin 4096) (q : Fin 512) (k : Fin 512) : Read.ridx_main_v16 (ix2 p q) k = ix2 k q :=
  funext fun a => Fin.ext (by match a with | ⟨0, _⟩ => rfl | ⟨1, _⟩ => rfl)
theorem lidx_v20 (p : Fin 4096) (q : Fin 512) (k : Fin 512) : Read.lidx_main_v20 (ix2 p q) k = ix2 p k :=
  funext fun a => Fin.ext (by match a with | ⟨0, _⟩ => rfl | ⟨1, _⟩ => rfl)
theorem ridx_v20 (p : Fin 4096) (q : Fin 512) (k : Fin 512) : Read.ridx_main_v20 (ix2 p q) k = ix2 k q :=
  funext fun a => Fin.ext (by match a with | ⟨0, _⟩ => rfl | ⟨1, _⟩ => rfl)

theorem bias_v3 (p : Fin 4096) (q : Fin 512) : Read.idx_main_v2 (Read.idx_main_v3 (ix2 p q)) = ix1 q :=
  funext fun a => Fin.ext (by match a with | ⟨0, _⟩ => rfl)
theorem bias_v8 (p : Fin 4096) (q : Fin 512) : Read.idx_main_v7 (Read.idx_main_v8 (ix2 p q)) = ix1 q :=
  funext fun a => Fin.ext (by match a with | ⟨0, _⟩ => rfl)
theorem bias_v13 (p : Fin 4096) (q : Fin 512) : Read.idx_main_v12 (Read.idx_main_v13 (ix2 p q)) = ix1 q :=
  funext fun a => Fin.ext (by match a with | ⟨0, _⟩ => rfl)
theorem bias_v18 (p : Fin 4096) (q : Fin 512) : Read.idx_main_v17 (Read.idx_main_v18 (ix2 p q)) = ix1 q :=
  funext fun a => Fin.ext (by match a with | ⟨0, _⟩ => rfl)
theorem bias_v22 (p : Fin 4096) (q : Fin 512) : Read.idx_main_v21 (Read.idx_main_v22 (ix2 p q)) = ix1 q :=
  funext fun a => Fin.ext (by match a with | ⟨0, _⟩ => rfl)
theorem ts_idx (p : Fin 4096) (q : Fin 512) : Read.idx_main_v24 (Read.idx_main_v25 (ix2 p q)) = ix1 p :=
  funext fun a => Fin.ext (by match a with | ⟨0, _⟩ => rfl)

/-! ## The concatenated row -/

/-- Below column 128 the concatenation reads the first array. -/
theorem concat_left (x0 : (⟨S4096x128, .f32⟩ : BufTy).Contents (Elt Ideal)) (x1 : (⟨S4096x512, .f32⟩ : BufTy).Contents (Elt Ideal)) (p : Fin 4096) (k : Fin 128) (h : k.val < 640) :
    Read.val_main_v0 (F := Ideal) x0 x1 (ix2 p (⟨k.val, h⟩ : Fin 640)) = x0 (ix2 p k) := by
  unfold Read.val_main_v0
  exact concatenate_pair_apply_left (1 : Fin S4096x640.rank) x0 x1 concatenates_S4096x128_S4096x512_S4096x640_d1
    (ix2 p (⟨k.val, h⟩ : Fin 640)) rfl (ix2 p k) (fun b => by match b with | ⟨0, _⟩ => rfl | ⟨1, _⟩ => rfl)

/-- From column 128 on it reads the second array, 128 columns to the left. -/
theorem concat_right (x0 : (⟨S4096x128, .f32⟩ : BufTy).Contents (Elt Ideal)) (x1 : (⟨S4096x512, .f32⟩ : BufTy).Contents (Elt Ideal)) (p : Fin 4096) (k : Fin 512) (h : 128 + k.val < 640) :
    Read.val_main_v0 (F := Ideal) x0 x1 (ix2 p (⟨128 + k.val, h⟩ : Fin 640)) = x1 (ix2 p k) := by
  unfold Read.val_main_v0
  exact concatenate_pair_apply_right (1 : Fin S4096x640.rank) x0 x1 concatenates_S4096x128_S4096x512_S4096x640_d1
    (ix2 p (⟨128 + k.val, h⟩ : Fin 640)) rfl rfl (ix2 p k)
    (fun b hb => by match b, hb with | ⟨0, _⟩, _ => rfl | ⟨1, _⟩, hb => exact absurd rfl hb)
    (Nat.add_comm k.val 128)

/-! ## The backbone -/

/-- Stage 5 at `(p, j)` is the backbone activation of row `p` at unit `j`: the sum over the 640 concatenated columns
    splits into the 128 that read the first array and the 512 that read the second. -/
theorem backbone_eq (x0 : (⟨S4096x128, .f32⟩ : BufTy).Contents (Elt Ideal)) (x1 : (⟨S4096x512, .f32⟩ : BufTy).Contents (Elt Ideal)) (x3 : (⟨S640x512, .f32⟩ : BufTy).Contents (Elt Ideal)) (x4 : (⟨S512, .f32⟩ : BufTy).Contents (Elt Ideal)) (p : Fin 4096) (j : Fin 512) :
    Read.val_main_v5 (F := Ideal) x0 x1 x3 x4 (ix2 p j)
      = backbone (fun k => x0 (ix2 p k)) (fun k => x1 (ix2 p k)) x3 (fun j => x4 (ix1 j)) j := by
  rw [Read.val_main_v5_apply, Read.val_main_v4_apply, Read.val_main_v1_apply, Read.val_main_v3_apply,
    Read.val_main_v2_apply, Ideal.hostUnary_tanh_def, Ideal.addf_def, sum_640_split, bias_v3]
  unfold backbone
  refine congrArg Ideal.tanh (congrArg (· + x4 (ix1 j)) (congrArg₂ (· + ·)
    (Finset.sum_congr rfl fun k _ => ?_) (Finset.sum_congr rfl fun k _ => ?_)))
  · rw [lidx_v1, ridx_v1, concat_left]
  · rw [lidx_v1, ridx_v1, concat_right]

/-! ## The four heads -/

/-- The first head before its `tanh`. -/
theorem head_v9 (x0 : (⟨S4096x128, .f32⟩ : BufTy).Contents (Elt Ideal)) (x1 : (⟨S4096x512, .f32⟩ : BufTy).Contents (Elt Ideal)) (x3 : (⟨S640x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (p : Fin 4096) (q : Fin 512) :
    Read.val_main_v9 (F := Ideal) x0 x1 x3 x4 x5 x6 (ix2 p q)
      = head (backbone (fun k => x0 (ix2 p k)) (fun k => x1 (ix2 p k)) x3 (fun j => x4 (ix1 j))) x5 (fun j => x6 (ix1 j)) q := by
  rw [Read.val_main_v9_apply, Read.val_main_v6_apply, Read.val_main_v8_apply, Read.val_main_v7_apply, Ideal.addf_def, bias_v8]
  unfold head
  refine congrArg (· + x6 (ix1 q)) (Finset.sum_congr rfl fun k _ => ?_)
  rw [lidx_v6, ridx_v6, backbone_eq]

/-- The second head before its `tanh`. -/
theorem head_v14 (x0 : (⟨S4096x128, .f32⟩ : BufTy).Contents (Elt Ideal)) (x1 : (⟨S4096x512, .f32⟩ : BufTy).Contents (Elt Ideal)) (x3 : (⟨S640x512, .f32⟩ : BufTy).Contents (Elt Ideal)) (x4 : (⟨S512, .f32⟩ : BufTy).Contents (Elt Ideal)) (x7 : (⟨S512x512, .f32⟩ : BufTy).Contents (Elt Ideal)) (x8 : (⟨S512, .f32⟩ : BufTy).Contents (Elt Ideal)) (p : Fin 4096) (q : Fin 512) :
    Read.val_main_v14 (F := Ideal) x0 x1 x3 x4 x7 x8 (ix2 p q)
      = head (backbone (fun k => x0 (ix2 p k)) (fun k => x1 (ix2 p k)) x3 (fun j => x4 (ix1 j))) x7 (fun j => x8 (ix1 j)) q := by
  rw [Read.val_main_v14_apply, Read.val_main_v11_apply, Read.val_main_v13_apply, Read.val_main_v12_apply, Ideal.addf_def, bias_v13]
  unfold head
  refine congrArg (· + x8 (ix1 q)) (Finset.sum_congr rfl fun k _ => ?_)
  rw [lidx_v11, ridx_v11, backbone_eq]

/-- The head that multiplies the elapsed time. -/
theorem head_v19 (x0 : (⟨S4096x128, .f32⟩ : BufTy).Contents (Elt Ideal)) (x1 : (⟨S4096x512, .f32⟩ : BufTy).Contents (Elt Ideal)) (x3 : (⟨S640x512, .f32⟩ : BufTy).Contents (Elt Ideal)) (x4 : (⟨S512, .f32⟩ : BufTy).Contents (Elt Ideal)) (x9 : (⟨S512x512, .f32⟩ : BufTy).Contents (Elt Ideal)) (x10 : (⟨S512, .f32⟩ : BufTy).Contents (Elt Ideal)) (p : Fin 4096) (q : Fin 512) :
    Read.val_main_v19 (F := Ideal) x0 x1 x3 x4 x9 x10 (ix2 p q)
      = head (backbone (fun k => x0 (ix2 p k)) (fun k => x1 (ix2 p k)) x3 (fun j => x4 (ix1 j))) x9 (fun j => x10 (ix1 j)) q := by
  rw [Read.val_main_v19_apply, Read.val_main_v16_apply, Read.val_main_v18_apply, Read.val_main_v17_apply, Ideal.addf_def, bias_v18]
  unfold head
  refine congrArg (· + x10 (ix1 q)) (Finset.sum_congr rfl fun k _ => ?_)
  rw [lidx_v16, ridx_v16, backbone_eq]

/-- The head added to that product. -/
theorem head_v23 (x0 : (⟨S4096x128, .f32⟩ : BufTy).Contents (Elt Ideal)) (x1 : (⟨S4096x512, .f32⟩ : BufTy).Contents (Elt Ideal)) (x3 : (⟨S640x512, .f32⟩ : BufTy).Contents (Elt Ideal)) (x4 : (⟨S512, .f32⟩ : BufTy).Contents (Elt Ideal)) (x11 : (⟨S512x512, .f32⟩ : BufTy).Contents (Elt Ideal)) (x12 : (⟨S512, .f32⟩ : BufTy).Contents (Elt Ideal)) (p : Fin 4096) (q : Fin 512) :
    Read.val_main_v23 (F := Ideal) x0 x1 x3 x4 x11 x12 (ix2 p q)
      = head (backbone (fun k => x0 (ix2 p k)) (fun k => x1 (ix2 p k)) x3 (fun j => x4 (ix1 j))) x11 (fun j => x12 (ix1 j)) q := by
  rw [Read.val_main_v23_apply, Read.val_main_v20_apply, Read.val_main_v22_apply, Read.val_main_v21_apply, Ideal.addf_def, bias_v22]
  unfold head
  refine congrArg (· + x12 (ix1 q)) (Finset.sum_congr rfl fun k _ => ?_)
  rw [lidx_v20, ridx_v20, backbone_eq]

/-! ## The interpolation weight -/

/-- Stage 33, `1 / (1 + exp (−y))`, is `logistic y` for `y` the time head times the elapsed time plus the offset head. -/
theorem sigma_eq (x0 : (⟨S4096x128, .f32⟩ : BufTy).Contents (Elt Ideal)) (x1 : (⟨S4096x512, .f32⟩ : BufTy).Contents (Elt Ideal)) (x2 : (⟨S4096, .f32⟩ : BufTy).Contents (Elt Ideal)) (x3 : (⟨S640x512, .f32⟩ : BufTy).Contents (Elt Ideal)) (x4 : (⟨S512, .f32⟩ : BufTy).Contents (Elt Ideal)) (x9 : (⟨S512x512, .f32⟩ : BufTy).Contents (Elt Ideal)) (x10 : (⟨S512, .f32⟩ : BufTy).Contents (Elt Ideal)) (x11 : (⟨S512x512, .f32⟩ : BufTy).Contents (Elt Ideal)) (x12 : (⟨S512, .f32⟩ : BufTy).Contents (Elt Ideal)) (p : Fin 4096) (q : Fin 512) :
    Read.val_main_v33 (F := Ideal) x0 x1 x2 x3 x4 x9 x10 x11 x12 (ix2 p q)
      = Ideal.logistic (head (backbone (fun k => x0 (ix2 p k)) (fun k => x1 (ix2 p k)) x3 (fun j => x4 (ix1 j))) x9 (fun j => x10 (ix1 j)) q * x2 (ix1 p)
          + head (backbone (fun k => x0 (ix2 p k)) (fun k => x1 (ix2 p k)) x3 (fun j => x4 (ix1 j))) x11 (fun j => x12 (ix1 j)) q) := by
  rw [Read.val_main_v33_apply, Read.val_main_v32_apply, Read.val_main_cst_0_apply, Read.val_main_v31_apply,
    Read.val_main_v30_apply, Read.val_main_cst_apply, Read.val_main_v29_apply, Read.val_main_v28_apply,
    Read.val_main_v27_apply, Read.val_main_v26_apply, Read.val_main_v25_apply, Read.val_main_v24_apply,
    head_v19, head_v23, ts_idx]
  simp only [Ideal.hostDivf_def, Ideal.ofBits_def, Ideal.ofBits_one_f32, Ideal.addf_def, Ideal.hostUnary_exp_def,
    Ideal.hostNegf_def, Ideal.negf_def, Ideal.mulf_def]
  rfl

/-- The reference's last stage is `G` of the thirteen arguments. -/
theorem result_eq (x0 : (⟨S4096x128, .f32⟩ : BufTy).Contents (Elt Ideal)) (x1 : (⟨S4096x512, .f32⟩ : BufTy).Contents (Elt Ideal)) (x2 : (⟨S4096, .f32⟩ : BufTy).Contents (Elt Ideal)) (x3 : (⟨S640x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x9 : (⟨S512x512, .f32⟩ : BufTy).Contents (Elt Ideal)) (x10 : (⟨S512, .f32⟩ : BufTy).Contents (Elt Ideal)) (x11 : (⟨S512x512, .f32⟩ : BufTy).Contents (Elt Ideal)) (x12 : (⟨S512, .f32⟩ : BufTy).Contents (Elt Ideal)) :
    Cert.ReferenceIdeal.Read.val_main_v38 (F := Ideal) x0 x1 x2 x3 x4 x5 x6 x7 x8 x9 x10 x11 x12
      = G x0 x1 x2 x3 x4 x5 x6 x7 x8 x9 x10 x11 x12 := by
  funext i
  obtain ⟨p, q, rfl⟩ : ∃ (p : Fin 4096) (q : Fin 512), i = ix2 p q := ⟨i 0, i 1, eq_ix2 i⟩
  rw [Read.val_main_v38_apply, Read.val_main_v36_apply, Read.val_main_v37_apply, Read.val_main_v35_apply,
    Read.val_main_v34_apply, Read.val_main_cst_1_apply, Read.val_main_v10_apply, Read.val_main_v15_apply,
    sigma_eq, head_v9, head_v14]
  simp only [Ideal.addf_def, Ideal.mulf_def, Ideal.subf_def, Ideal.hostUnary_tanh_def, Ideal.ofBits_def,
    Ideal.ofBits_one_f32]
  exact blend _ _ _

end Cert.ReferenceIdeal.RefValue

end
-- ==== Proof.lean ====
/-
  The certificate of the fused CfC cell against its plain reference.

  Both programs compute, for every batch row, the closed-form cell of Proof/Spec.lean: the backbone activation
  `x = tanh ([input, hx] · Wb + bb)`, four affine heads of `x`, and the interpolation of `tanh` of the first two heads
  by the logistic of `t_a · ts + t_b`. The kernel computes the backbone product as the sum of two products (the
  first 128 rows of `Wb` against `input`, the last 512 against `hx`), works on tiles of 512 rows inside blocks of 1024,
  and writes `ff1 + σ · (ff2 − ff1)`; the reference concatenates the inputs, multiplies once, spells the logistic as
  `1 / (1 + exp (−y))` and writes `ff1 · (1 − σ) + σ · ff2`. On the extended reals these agree for every input:
  splitting a finite sum needs only commutativity and associativity of addition, and `tanh` and `logistic` take
  every extended real to a real number, where the two interpolation formulas are one ring identity. So the
  precondition (finite inputs) is never opened.

  * Proof/Spec.lean — the closed form `G` and the two laws.
  * Proof/Tile.lean — the kernel body's two stored tiles, entry by entry, are the cell of the tile's rows.
  * Proof/Whole.lean — the four blocks cover the result arrays: the kernel's run ends at `G` of the arguments.
  * Proof/RefCell.lean — the reference's last stage, read operation by operation, is `G` of the arguments.
  The three frames are the generated frame runs; the idealization rewrote no operation, so `preserves` is trivial.
-/
import proofs.«168683_g23931557773776_cont_8to1_961_20_alg».proof.Defs
import proofs.«168683_g23931557773776_cont_8to1_961_20_alg».proof.Proof.Gen.Kernel
import proofs.«168683_g23931557773776_cont_8to1_961_20_alg».proof.Proof.Gen.Kernel.Frame
import proofs.«168683_g23931557773776_cont_8to1_961_20_alg».proof.Proof.Gen.KernelIdeal
import proofs.«168683_g23931557773776_cont_8to1_961_20_alg».proof.Proof.Gen.KernelIdeal.Frame
import proofs.«168683_g23931557773776_cont_8to1_961_20_alg».proof.Proof.Gen.KernelIdeal.Value
import proofs.«168683_g23931557773776_cont_8to1_961_20_alg».proof.Proof.Gen.ReferenceIdeal
import proofs.«168683_g23931557773776_cont_8to1_961_20_alg».proof.Proof.Gen.ReferenceIdeal.Run
import proofs.«168683_g23931557773776_cont_8to1_961_20_alg».proof.Proof.Gen.ReferenceIdeal.Read
import proofs.«168683_g23931557773776_cont_8to1_961_20_alg».proof.Proof.Gen.Pre_finite_inputs
import proofs.«168683_g23931557773776_cont_8to1_961_20_alg».proof.Proof.Spec
import proofs.«168683_g23931557773776_cont_8to1_961_20_alg».proof.Proof.Whole
import proofs.«168683_g23931557773776_cont_8to1_961_20_alg».proof.Proof.RefCell
import Idealize.ShloMosaic.Adequacy
import Idealize.ShloMosaic.Init

noncomputable section

namespace Cert.Proof

open Idealize.ShloMosaic Idealize.ShloMosaic.TcCoe Idealize.SL.Sem

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

/-- The reference has no kernel: its frame is its run with the results dropped. -/
theorem frame_reference [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.Value.run (F := Ideal) m ρ)

/-- From memories that agree on the thirteen arguments, the kernel's two result arrays and the reference's result
    all end at the closed-form cell `G` of the arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Whole.result m c, fun c => Cert.KernelIdeal.Whole.result m c,
    Cert.KernelIdeal.Whole.run m ρ, ?_⟩
  refine (θ_run Cert.ReferenceIdeal.defs _ _).mono (fun _ h c => ?_)
    (Cert.ReferenceIdeal.Value.run (F := Ideal) m' ρ')
  have e : Cert.ReferenceIdeal.Value.res_main_v38 m' c = Cert.KernelIdeal.Whole.result m c := by
    obtain ⟨a0, a1, a2, a3, a4, a5, a6, a7, a8, a9, a10, a11, a12⟩ := hagree c
    rw [Cert.ReferenceIdeal.Read.val_main_v38_eq, Cert.ReferenceIdeal.RefValue.result_eq,
      a0, a1, a2, a3, a4, a5, a6, a7, a8, a9, a10, a11, a12]
    rfl
  exact ⟨(h c).1.trans e, (h c).2.1.trans e, (h c).2.2⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
